-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x3 : Shape := ⟨2, ![524288, 3]⟩
abbrev S524288x32 : Shape := ⟨2, ![524288, 32]⟩
abbrev S131072x16 : Shape := ⟨2, ![131072, 16]⟩
abbrev S131072 : Shape := ⟨1, ![131072]⟩
abbrev S35x64 : Shape := ⟨2, ![35, 64]⟩
abbrev S64 : Shape := ⟨1, ![64]⟩
abbrev S_ : Shape := ⟨0, ![]⟩

class Facts : Prop where
  bcast_S_S524288x3 : S_.BroadcastsInDim S524288x3 (![] : Fin 0 → Fin S524288x3.rank)
  reducesTo_S524288x3_S_d0_1 : S524288x3.ReducesTo [0, 1] S_
  h_S_ : 0 < S_.numel
  bcast_S_S524288x32 : S_.BroadcastsInDim S524288x32 (![] : Fin 0 → Fin S524288x32.rank)
  reducesTo_S524288x32_S_d0_1 : S524288x32.ReducesTo [0, 1] S_
  bcast_S_S35x64 : S_.BroadcastsInDim S35x64 (![] : Fin 0 → Fin S35x64.rank)
  reducesTo_S35x64_S_d0_1 : S35x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_cst_12 : FVec F S_ .f32 := constant S_ .f32 0x00000000#32
  let main_v34 : FVec F S64 .f32 := broadcastInDim S64 ![] bcast_S_S64 main_cst_12
  let main_v35 : IVec S64 1 := cmpf .oge main_arg8 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v33 main_v36
  main_v37

def fn_part1 {F : FTy → Type} [FloatOps F] (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S524288x3 .f32) (main_arg1 : FVec F S524288x32 .f32) (main_arg2 : IVec S131072x16 32) (main_arg3 : IVec S131072 32) (main_arg4 : FVec F S35x64 .f32) (main_arg5 : FVec F S64 .f32) (main_arg6 : FVec F S64 .f32) (main_arg7 : FVec F S64 .f32) (main_arg8 : FVec F S64 .f32) : IVec S_ 1 :=
  let main_v0 : FVec F S524288x3 .f32 := Host.absf main_arg0
  let main_cst : FVec F S_ .f32 := constant S_ .f32 0x7F800000#32
  let main_v1 : FVec F S524288x3 .f32 := broadcastInDim S524288x3 ![] bcast_S_S524288x3 main_cst
  let main_v2 : IVec S524288x3 1 := cmpf .olt main_v0 main_v1
  let main_c : IVec S_ 1 := constantI S_ 1 1#1
  let main_v3 : IVec S_ 1 := (fun x v => Host.reduce IntOp.andi x v reducesTo_S524288x3_S_d0_1 h_S_) main_v2 main_c
  let main_v4 : FVec F S524288x32 .f32 := Host.absf main_arg1
  let main_cst_0 : FVec F S_ .f32 := constant S_ .f32 0x7F800000#32
  let main_v5 : FVec F S524288x32 .f32 := broadcastInDim S524288x32 ![] bcast_S_S524288x32 main_cst_0
  let main_v6 : IVec S524288x32 1 := cmpf .olt main_v4 main_v5
  let main_c_1 : IVec S_ 1 := constantI S_ 1 1#1
  let main_v7 : IVec S_ 1 := (fun x v => Host.reduce IntOp.andi x v reducesTo_S524288x32_S_d0_1 h_S_) main_v6 main_c_1
  let main_v8 : IVec S_ 1 := andi main_v3 main_v7
  let main_v9 : FVec F S35x64 .f32 := Host.absf main_arg4
  let main_cst_2 : FVec F S_ .f32 := constant S_ .f32 0x7F800000#32
  let main_v10 : FVec F S35x64 .f32 := broadcastInDim S35x64 ![] bcast_S_S35x64 main_cst_2
  let main_v11 : IVec S35x64 1 := cmpf .olt main_v9 main_v10
  let main_c_3 : IVec S_ 1 := constantI S_ 1 1#1
  let main_v12 : IVec S_ 1 := (fun x v => Host.reduce IntOp.andi x v reducesTo_S35x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S524288x3 : Shape := ⟨2, ![524288, 3]⟩
abbrev S524288x32 : Shape := ⟨2, ![524288, 32]⟩
abbrev S131072x16 : Shape := ⟨2, ![131072, 16]⟩
abbrev S131072 : Shape := ⟨1, ![131072]⟩
abbrev S35x64 : Shape := ⟨2, ![35, 64]⟩
abbrev S64 : Shape := ⟨1, ![64]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x3 : Shape := ⟨2, ![131072, 3]⟩
abbrev S131072x16x1 : Shape := ⟨3, ![131072, 16, 1]⟩
abbrev S1x1x1 : Shape := ⟨3, ![1, 1, 1]⟩
abbrev S131072x16x3 : Shape := ⟨3, ![131072, 16, 3]⟩
abbrev S131072x1x3 : Shape := ⟨3, ![131072, 1, 3]⟩
abbrev S131072x16x32 : Shape := ⟨3, ![131072, 16, 32]⟩
abbrev S131072x16x35 : Shape := ⟨3, ![131072, 16, 35]⟩
abbrev S1x64 : Shape := ⟨2, ![1, 64]⟩
abbrev S131072x64 : Shape := ⟨2, ![131072, 64]⟩
abbrev S1024x16x35 : Shape := ⟨3, ![1024, 16, 35]⟩
abbrev S1024x64 : Shape := ⟨2, ![1024, 64]⟩
abbrev S16384x35 : Shape := ⟨2, ![16384, 35]⟩
abbrev S16384x64 : Shape := ⟨2, ![16384, 64]⟩
abbrev S1024x16x64 : Shape := ⟨3, ![1024, 16, 64]⟩
abbrev S1x1x64 : Shape := ⟨3, ![1, 1, 64]⟩

abbrev nBuf : Space → Nat
  | .hbm => 93
  | .vmem => 7
  | .smem => 0
  | _ => 0

abbrev bufTy : (tb : Table) → Fin (tcTables nBuf tb) → BufTy
  | .hbm, ⟨0, _⟩ => ⟨S524288x3, .f32⟩
  | .hbm, ⟨1, _⟩ => ⟨S524288x32, .f32⟩
  | .hbm, ⟨2, _⟩ => ⟨S131072x16, .i32⟩
  | .hbm, ⟨3, _⟩ => ⟨S131072, .i32⟩
  | .hbm, ⟨4, _⟩ => ⟨S35x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S1, .i32⟩
  | .hbm, ⟨18, _⟩ => ⟨S_, .i32⟩
  | .hbm, ⟨19, _⟩ => ⟨S131072x1, .i32⟩
  | .hbm, ⟨20, _⟩ => ⟨S131072x1, .i1⟩
  | .hbm, ⟨21, _⟩ => ⟨S1x1, .i32⟩
  | .hbm, ⟨22, _⟩ => ⟨S131072x1, .i32⟩
  | .hbm, ⟨23, _⟩ => ⟨S131072x1, .i1⟩
  | .hbm, ⟨24, _⟩ => ⟨S131072x1, .i1⟩
  | .hbm, ⟨25, _⟩ => ⟨S_, .i1⟩
  | .hbm, ⟨26, _⟩ => ⟨S131072, .i1⟩
  | .hbm, ⟨27, _⟩ => ⟨S131072x3, .f32⟩
  | .hbm, ⟨28, _⟩ => ⟨S131072x3, .i1⟩
  | .hbm, ⟨29, _⟩ => ⟨S_, .f32⟩
  | .hbm, ⟨30, _⟩ => ⟨S131072x3, .f32⟩
  | .hbm, ⟨31, _⟩ => ⟨S131072x3, .f32⟩
  | .hbm, ⟨32, _⟩ => ⟨S_, .i32⟩
  | .hbm, ⟨33, _⟩ => ⟨S131072x16, .i32⟩
  | .hbm, ⟨34, _⟩ => ⟨S131072x16, .i1⟩
  | .hbm, ⟨35, _⟩ => ⟨S_, .i32⟩
  | .hbm, ⟨36, _⟩ => ⟨S131072x16, .i32⟩
  | .hbm, ⟨37, _⟩ => ⟨S131072x16, .i32⟩
  | .hbm, ⟨38, _⟩ => ⟨S131072x16, .i32⟩
  | .hbm, ⟨39, _⟩ => ⟨S131072x16x1, .i32⟩
  | .hbm, ⟨40, _⟩ => ⟨S1, .i32⟩
  | .hbm, ⟨41, _⟩ => ⟨S_, .i32⟩
  | .hbm, ⟨42, _⟩ => ⟨S131072x16x1, .i32⟩
  | .hbm, ⟨43, _⟩ => ⟨S131072x16x1, .i1⟩
  | .hbm, ⟨44, _⟩ => ⟨S1x1x1, .i32⟩
  | .hbm, ⟨45, _⟩ => ⟨S131072x16x1, .i32⟩
  | .hbm, ⟨46, _⟩ => ⟨S131072x16x1, .i1⟩
  | .hbm, ⟨47, _⟩ => ⟨S131072x16x1, .i1⟩
  | .hbm, ⟨48, _⟩ => ⟨S_, .i1⟩
  | .hbm, ⟨49, _⟩ => ⟨S131072x16, .i1⟩
  | .hbm, ⟨50, _⟩ => ⟨S131072x16x3, .f32⟩
  | .hbm, ⟨51, _⟩ => ⟨S131072x16x3, .i1⟩
  | .hbm, ⟨52, _⟩ => ⟨S_, .f32⟩
  | .hbm, ⟨53, _⟩ => ⟨S131072x16x3, .f32⟩
  | .hbm, ⟨54, _⟩ => ⟨S131072x16x3, .f32⟩
  | .hbm, ⟨55, _⟩ => ⟨S131072x1x3, .f32⟩
  | .hbm, ⟨56, _⟩ => ⟨S131072x16x3, .f32⟩
  | .hbm, ⟨57, _⟩ => ⟨S131072x16x3, .f32⟩
  | .hbm, ⟨58, _⟩ => ⟨S_, .i32⟩
  | .hbm, ⟨59, _⟩ => ⟨S131072x16, .i32⟩
  | .hbm, ⟨60, _⟩ => ⟨S131072x16, .i1⟩
  | .hbm, ⟨61, _⟩ => ⟨S_, .i32⟩
  | .hbm, ⟨62, _⟩ => ⟨S131072x16, .i32⟩
  | .hbm, ⟨63, _⟩ => ⟨S131072x16, .i32⟩
  | .hbm, ⟨64, _⟩ => ⟨S131072x16, .i32⟩
  | .hbm, ⟨65, _⟩ => ⟨S131072x16x1, .i32⟩
  | .hbm, ⟨66, _⟩ => ⟨S1, .i32⟩
  | .hbm, ⟨67, _⟩ => ⟨S_, .i32⟩
  | .hbm, ⟨68, _⟩ => ⟨S131072x16x1, .i32⟩
  | .hbm, ⟨69, _⟩ => ⟨S131072x16x1, .i1⟩
  | .hbm, ⟨70, _⟩ => ⟨S1x1x1, .i32⟩
  | .hbm, ⟨71, _⟩ => ⟨S131072x16x1, .i32⟩
  | .hbm, ⟨72, _⟩ => ⟨S131072x16x1, .i1⟩
  | .hbm, ⟨73, _⟩ => ⟨S131072x16x1, .i1⟩
  | .hbm, ⟨74, _⟩ => ⟨S_, .i1⟩
  | .hbm, ⟨75, _⟩ => ⟨S131072x16, .i1⟩
  | .hbm, ⟨76, _⟩ => ⟨S131072x16x32, .f32⟩
  | .hbm, ⟨77, _⟩ => ⟨S131072x16x32, .i1⟩
  | .hbm, ⟨78, _⟩ => ⟨S_, .f32⟩
  | .hbm, ⟨79, _⟩ => ⟨S131072x16x32, .f32⟩
  | .hbm, ⟨80, _⟩ => ⟨S131072x16x32, .f32⟩
  | .hbm, ⟨81, _⟩ => ⟨S131072x16x35, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S1x64, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S1x64, .f32⟩
  | .hbm, ⟨92, _⟩ => ⟨S131072x64, .f32⟩
  | .local _ .vmem, ⟨0, _⟩ => ⟨S1024x16x35, .f32⟩
  | .local _ .vmem, ⟨1, _⟩ => ⟨S1024x16x35, .f32⟩
  | .local _ .vmem, ⟨2, _⟩ => ⟨S35x64, .f32⟩
  | .local _ .vmem, ⟨3, _⟩ => ⟨S1x64, .f32⟩
  | .local _ .vmem, ⟨4, _⟩ => ⟨S1x64, .f32⟩
  | .local _ .vmem, ⟨5, _⟩ => ⟨S1024x64, .f32⟩
  | .local _ .vmem, ⟨6, _⟩ => ⟨S1024x64, .f32⟩
  | _, _ => ⟨S524288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v5 : Ref sig .tc := ⟨.hbm, 80, rfl⟩
abbrev main_v6 : Ref sig .tc := ⟨.hbm, 81, rfl⟩
abbrev main_cst : Ref sig .tc := ⟨.hbm, 82, rfl⟩
abbrev main_v7 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S35x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x3_0 : S131072.BroadcastsInDim S131072x3 (![0] : Fin 1 → Fin S131072x3.rank)
  bcast_S_S131072x3 : S_.BroadcastsInDim S131072x3 (![] : Fin 0 → Fin S131072x3.rank)
  bcast_S_S131072x16 : S_.BroadcastsInDim S131072x16 (![] : Fin 0 → Fin S131072x16.rank)
  bcast_S131072x16_S131072x16x1_0_1 : S131072x16.BroadcastsInDim S131072x16x1 (![0, 1] : Fin 2 → Fin S131072x16x1.rank)
  bcast_S_S131072x16x1 : S_.BroadcastsInDim S131072x16x1 (![] : Fin 0 → Fin S131072x16x1.rank)
  bcast_S1_S1x1x1_2 : S1.BroadcastsInDim S1x1x1 (![2] : Fin 1 → Fin S1x1x1.rank)
  bcast_S1x1x1_S131072x16x1_0_1_2 : S1x1x1.BroadcastsInDim S131072x16x1 (![0, 1, 2] : Fin 3 → Fin S131072x16x1.rank)
  reducesTo_S131072x16x1_S131072x16_d2 : S131072x16x1.ReducesTo [2] S131072x16
  bcast_S131072x16_S131072x16x3_0_1 : S131072x16.BroadcastsInDim S131072x16x3 (![0, 1] : Fin 2 → Fin S131072x16x3.rank)
  bcast_S_S131072x16x3 : S_.BroadcastsInDim S131072x16x3 (![] : Fin 0 → Fin S131072x16x3.rank)
  bcast_S131072x3_S131072x1x3_0_2 : S131072x3.BroadcastsInDim S131072x1x3 (![0, 2] : Fin 2 → Fin S131072x1x3.rank)
  bcast_S131072x1x3_S131072x16x3_0_1_2 : S131072x1x3.BroadcastsInDim S131072x16x3 (![0, 1, 2] : Fin 3 → Fin S131072x16x3.rank)
  bcast_S131072x16_S131072x16x32_0_1 : S131072x16.BroadcastsInDim S131072x16x32 (![0, 1] : Fin 2 → Fin S131072x16x32.rank)
  bcast_S_S131072x16x32 : S_.BroadcastsInDim S131072x16x32 (![] : Fin 0 → Fin S131072x16x32.rank)
  concatenates_S131072x16x3_S131072x16x32_S131072x16x35_d2 : Shape.Concatenates [S131072x16x3, S131072x16x32] S131072x16x35 2
  bcast_S_S64 : S_.BroadcastsInDim S64 (![] : Fin 0 → Fin S64.rank)
  shapeCasts_S64_S1x64 : S64.ShapeCasts S1x64
  inb_S1024x16x35_S1024x16x35_0_0_0 : ∀ a, (![0, 0, 0] : Fin 3 → Nat) a + S1024x16x35.size a ≤ S1024x16x35.size a
  h_S1024x16x35 : 0 < S1024x16x35.numel
  shapeCasts_S1024x16x35_S1024x16x35 : S1024x16x35.ShapeCasts S1024x16x35
  shapeCasts_S1024x16x35_S16384x35 : S1024x16x35.ShapeCasts S16384x35
  bitsLt_bf16_f32 : FTy.bits .bf16 < FTy.bits .f32
  inb_S35x64_S35x64_0_0 : ∀ a, (![0, 0] : Fin 2 → Nat) a + S35x64.size a ≤ S35x64.size a
  h_S35x64 : 0 < S35x64.numel
  shapeCasts_S16384x64_S1024x16x64 : S16384x64.ShapeCasts S1024x16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S1024x16x64 : S1x1x64.Broadcasts S1024x16x64
  reduces_S1024x16x64_S1024x64 : S1024x16x64.Reduces [1] S1024x64
  inb_S1024x64_S1024x64_0_0 : ∀ a, (![0, 0] : Fin 2 → Nat) a + S1024x64.size a ≤ S1024x64.size a
  h_S1024x64 : 0 < S1024x64.numel
  gather_S524288x3_S131072x1_S131072x3_1_0_n_n_0_1_13_wf : GatherDims.WF S524288x3 S131072x1 S131072x3 [1] [0] [] [0] [] 1 ![1, 3]
  gather_S524288x3_S131072x16x1_S131072x16x3_2_0_n_n_0_2_13_wf : GatherDims.WF S524288x3 S131072x16x1 S131072x16x3 [2] [0] [] [0] [] 2 ![1, 3]
  gather_S524288x32_S131072x16x1_S131072x16x32_2_0_n_n_0_2_132_wf : GatherDims.WF S524288x32 S131072x16x1 S131072x16x32 [2] [0] [] [0] [] 2 ![1, 32]
  dot_S16384x35_S35x64_S16384x64_1_0_0_1_n_n_wf : DotDims.WF S16384x35 S35x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16x35.size a ≤ S131072x16x35.size a
  hwx0_0 : ∀ i : grid0.Coords, EltTy.bits .f32 = 32 ∨ (Rect.block (s := S131072x16x35) S1024x16x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S35x64.size a ≤ S35x64.size a
  hwx0_1 : ∀ i : grid0.Coords, EltTy.bits .f32 = 32 ∨ (Rect.block (s := S35x64) S35x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S131072x64.size a
  hwx0_4 : ∀ i : grid0.Coords, EltTy.bits .f32 = 32 ∨ (Rect.block (s := S131072x64) S1024x64.size (cc0_transform_4 i) (hinb0_4 i)).WholeWords (EltTy.packing .f32)

variable [Facts₀]

def gather_S524288x3_S131072x1_S131072x3_1_0_n_n_0_1_13 : GatherDims S524288x3 S131072x1 S131072x3 where
  offsetDims := [1]
  collapsedSliceDims := [0]
  operandBatchingDims := []
  startIndicesBatchingDims := []
  startIndexMap := [0]
  indexVectorDim := 1
  sliceSizes := ![1, 3]
  wf := gather_S524288x3_S131072x1_S131072x3_1_0_n_n_0_1_13_wf
def gather_S524288x3_S131072x16x1_S131072x16x3_2_0_n_n_0_2_13 : GatherDims S524288x3 S131072x16x1 S131072x16x3 where
  offsetDims := [2]
  collapsedSliceDims := [0]
  operandBatchingDims := []
  startIndicesBatchingDims := []
  startIndexMap := [0]
  indexVectorDim := 2
  sliceSizes := ![1, 3]
  wf := gather_S524288x3_S131072x16x1_S131072x16x3_2_0_n_n_0_2_13_wf
def gather_S524288x32_S131072x16x1_S131072x16x32_2_0_n_n_0_2_132 : GatherDims S524288x32 S131072x16x1 S131072x16x32 where
  offsetDims := [2]
  collapsedSliceDims := [0]
  operandBatchingDims := []
  startIndicesBatchingDims := []
  startIndexMap := [0]
  indexVectorDim := 2
  sliceSizes := ![1, 32]
  wf := gather_S524288x32_S131072x16x1_S131072x16x32_2_0_n_n_0_2_132_wf
def dot_S16384x35_S35x64_S16384x64_1_0_0_1_n_n : DotDims S16384x35 S35x64 S16384x64 where
  lhsContracting := [1]
  rhsContracting := [0]
  lhsNonContracting := [0]
  rhsNonContracting := [1]
  lhsBatch := []
  rhsBatch := []
  wf := dot_S16384x35_S35x64_S16384x64_1_0_0_1_n_n_wf

abbrev win0_0 : Pipeline.Window sig grid0 :=
  Pipeline.Window.ofSpec (Memref.whole main_v6) S1024x16x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S35x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x3 : Shape := ⟨2, ![524288, 3]⟩
abbrev S524288x32 : Shape := ⟨2, ![524288, 32]⟩
abbrev S131072x16 : Shape := ⟨2, ![131072, 16]⟩
abbrev S131072 : Shape := ⟨1, ![131072]⟩
abbrev S35x64 : Shape := ⟨2, ![35, 64]⟩
abbrev S64 : Shape := ⟨1, ![64]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x3 : Shape := ⟨2, ![131072, 3]⟩
abbrev S131072x16x1 : Shape := ⟨3, ![131072, 16, 1]⟩
abbrev S1x1x1 : Shape := ⟨3, ![1, 1, 1]⟩
abbrev S131072x16x3 : Shape := ⟨3, ![131072, 16, 3]⟩
abbrev S131072x1x3 : Shape := ⟨3, ![131072, 1, 3]⟩
abbrev S131072x16x32 : Shape := ⟨3, ![131072, 16, 32]⟩
abbrev S131072x16x35 : Shape := ⟨3, ![131072, 16, 35]⟩
abbrev S131072x16x64 : Shape := ⟨3, ![131072, 16, 64]⟩
abbrev S1x1x64 : Shape := ⟨3, ![1, 1, 64]⟩
abbrev S131072x64 : Shape := ⟨2, ![131072, 64]⟩

abbrev nBuf : Space → Nat
  | .hbm => 102
  | .vmem => 0
  | .smem => 0
  | _ => 0

abbrev bufTy : (tb : Table) → Fin (tcTables nBuf tb) → BufTy
  | .hbm, ⟨0, _⟩ => ⟨S524288x3, .f32⟩
  | .hbm, ⟨1, _⟩ => ⟨S524288x32, .f32⟩
  | .hbm, ⟨2, _⟩ => ⟨S131072x16, .i32⟩
  | .hbm, ⟨3, _⟩ => ⟨S131072, .i32⟩
  | .hbm, ⟨4, _⟩ => ⟨S35x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S1, .i32⟩
  | .hbm, ⟨18, _⟩ => ⟨S_, .i32⟩
  | .hbm, ⟨19, _⟩ => ⟨S131072x1, .i32⟩
  | .hbm, ⟨20, _⟩ => ⟨S131072x1, .i1⟩
  | .hbm, ⟨21, _⟩ => ⟨S1x1, .i32⟩
  | .hbm, ⟨22, _⟩ => ⟨S131072x1, .i32⟩
  | .hbm, ⟨23, _⟩ => ⟨S131072x1, .i1⟩
  | .hbm, ⟨24, _⟩ => ⟨S131072x1, .i1⟩
  | .hbm, ⟨25, _⟩ => ⟨S_, .i1⟩
  | .hbm, ⟨26, _⟩ => ⟨S131072, .i1⟩
  | .hbm, ⟨27, _⟩ => ⟨S131072x3, .f32⟩
  | .hbm, ⟨28, _⟩ => ⟨S131072x3, .i1⟩
  | .hbm, ⟨29, _⟩ => ⟨S_, .f32⟩
  | .hbm, ⟨30, _⟩ => ⟨S131072x3, .f32⟩
  | .hbm, ⟨31, _⟩ => ⟨S131072x3, .f32⟩
  | .hbm, ⟨32, _⟩ => ⟨S_, .i32⟩
  | .hbm, ⟨33, _⟩ => ⟨S131072x16, .i32⟩
  | .hbm, ⟨34, _⟩ => ⟨S131072x16, .i1⟩
  | .hbm, ⟨35, _⟩ => ⟨S_, .i32⟩
  | .hbm, ⟨36, _⟩ => ⟨S131072x16, .i32⟩
  | .hbm, ⟨37, _⟩ => ⟨S131072x16, .i32⟩
  | .hbm, ⟨38, _⟩ => ⟨S131072x16, .i32⟩
  | .hbm, ⟨39, _⟩ => ⟨S131072x16x1, .i32⟩
  | .hbm, ⟨40, _⟩ => ⟨S1, .i32⟩
  | .hbm, ⟨41, _⟩ => ⟨S_, .i32⟩
  | .hbm, ⟨42, _⟩ => ⟨S131072x16x1, .i32⟩
  | .hbm, ⟨43, _⟩ => ⟨S131072x16x1, .i1⟩
  | .hbm, ⟨44, _⟩ => ⟨S1x1x1, .i32⟩
  | .hbm, ⟨45, _⟩ => ⟨S131072x16x1, .i32⟩
  | .hbm, ⟨46, _⟩ => ⟨S131072x16x1, .i1⟩
  | .hbm, ⟨47, _⟩ => ⟨S131072x16x1, .i1⟩
  | .hbm, ⟨48, _⟩ => ⟨S_, .i1⟩
  | .hbm, ⟨49, _⟩ => ⟨S131072x16, .i1⟩
  | .hbm, ⟨50, _⟩ => ⟨S131072x16x3, .f32⟩
  | .hbm, ⟨51, _⟩ => ⟨S131072x16x3, .i1⟩
  | .hbm, ⟨52, _⟩ => ⟨S_, .f32⟩
  | .hbm, ⟨53, _⟩ => ⟨S131072x16x3, .f32⟩
  | .hbm, ⟨54, _⟩ => ⟨S131072x16x3, .f32⟩
  | .hbm, ⟨55, _⟩ => ⟨S131072x1x3, .f32⟩
  | .hbm, ⟨56, _⟩ => ⟨S131072x16x3, .f32⟩
  | .hbm, ⟨57, _⟩ => ⟨S131072x16x3, .f32⟩
  | .hbm, ⟨58, _⟩ => ⟨S_, .i32⟩
  | .hbm, ⟨59, _⟩ => ⟨S131072x16, .i32⟩
  | .hbm, ⟨60, _⟩ => ⟨S131072x16, .i1⟩
  | .hbm, ⟨61, _⟩ => ⟨S_, .i32⟩
  | .hbm, ⟨62, _⟩ => ⟨S131072x16, .i32⟩
  | .hbm, ⟨63, _⟩ => ⟨S131072x16, .i32⟩
  | .hbm, ⟨64, _⟩ => ⟨S131072x16, .i32⟩
  | .hbm, ⟨65, _⟩ => ⟨S131072x16x1, .i32⟩
  | .hbm, ⟨66, _⟩ => ⟨S1, .i32⟩
  | .hbm, ⟨67, _⟩ => ⟨S_, .i32⟩
  | .hbm, ⟨68, _⟩ => ⟨S131072x16x1, .i32⟩
  | .hbm, ⟨69, _⟩ => ⟨S131072x16x1, .i1⟩
  | .hbm, ⟨70, _⟩ => ⟨S1x1x1, .i32⟩
  | .hbm, ⟨71, _⟩ => ⟨S131072x16x1, .i32⟩
  | .hbm, ⟨72, _⟩ => ⟨S131072x16x1, .i1⟩
  | .hbm, ⟨73, _⟩ => ⟨S131072x16x1, .i1⟩
  | .hbm, ⟨74, _⟩ => ⟨S_, .i1⟩
  | .hbm, ⟨75, _⟩ => ⟨S131072x16, .i1⟩
  | .hbm, ⟨76, _⟩ => ⟨S131072x16x32, .f32⟩
  | .hbm, ⟨77, _⟩ => ⟨S131072x16x32, .i1⟩
  | .hbm, ⟨78, _⟩ => ⟨S_, .f32⟩
  | .hbm, ⟨79, _⟩ => ⟨S131072x16x32, .f32⟩
  | .hbm, ⟨80, _⟩ => ⟨S131072x16x32, .f32⟩
  | .hbm, ⟨81, _⟩ => ⟨S131072x16x35, .f32⟩
  | .hbm, ⟨82, _⟩ => ⟨S131072x16x64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S1x1x64, .f32⟩
  | .hbm, ⟨88, _⟩ => ⟨S131072x16x64, .f32⟩
  | .hbm, ⟨89, _⟩ => ⟨S131072x16x64, .f32⟩
  | .hbm, ⟨90, _⟩ => ⟨S64, .f32⟩
  | .hbm, ⟨91, _⟩ => ⟨S1x1x64, .f32⟩
  | .hbm, ⟨92, _⟩ => ⟨S131072x16x64, .f32⟩
  | .hbm, ⟨93, _⟩ => ⟨S131072x16x64, .f32⟩
  | .hbm, ⟨94, _⟩ => ⟨S1x1x64, .f32⟩
  | .hbm, ⟨95, _⟩ => ⟨S131072x16x64, .f32⟩
  | .hbm, ⟨96, _⟩ => ⟨S131072x16x64, .f32⟩
  | .hbm, ⟨97, _⟩ => ⟨S_, .f32⟩
  | .hbm, ⟨98, _⟩ => ⟨S131072x16x64, .f32⟩
  | .hbm, ⟨99, _⟩ => ⟨S131072x16x64, .f32⟩
  | .hbm, ⟨100, _⟩ => ⟨S_, .f32⟩
  | .hbm, ⟨101, _⟩ => ⟨S131072x64, .f32⟩
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_cst : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_call3_cst : Ref sig .tc := ⟨.hbm, 97, rfl⟩
abbrev main_call3_v0 : Ref sig .tc := ⟨.hbm, 98, rfl⟩
abbrev main_v21 : Ref sig .tc := ⟨.hbm, 99, rfl⟩
abbrev main_cst_0 : Ref sig .tc := ⟨.hbm, 100, rfl⟩
abbrev main_v22 : Ref sig .tc := ⟨.hbm, 101, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x3_0 : S131072.BroadcastsInDim S131072x3 (![0] : Fin 1 → Fin S131072x3.rank)
  bcast_S_S131072x3 : S_.BroadcastsInDim S131072x3 (![] : Fin 0 → Fin S131072x3.rank)
  bcast_S_S131072x16 : S_.BroadcastsInDim S131072x16 (![] : Fin 0 → Fin S131072x16.rank)
  bcast_S131072x16_S131072x16x1_0_1 : S131072x16.BroadcastsInDim S131072x16x1 (![0, 1] : Fin 2 → Fin S131072x16x1.rank)
  bcast_S_S131072x16x1 : S_.BroadcastsInDim S131072x16x1 (![] : Fin 0 → Fin S131072x16x1.rank)
  bcast_S1_S1x1x1_2 : S1.BroadcastsInDim S1x1x1 (![2] : Fin 1 → Fin S1x1x1.rank)
  bcast_S1x1x1_S131072x16x1_0_1_2 : S1x1x1.BroadcastsInDim S131072x16x1 (![0, 1, 2] : Fin 3 → Fin S131072x16x1.rank)
  reducesTo_S131072x16x1_S131072x16_d2 : S131072x16x1.ReducesTo [2] S131072x16
  bcast_S131072x16_S131072x16x3_0_1 : S131072x16.BroadcastsInDim S131072x16x3 (![0, 1] : Fin 2 → Fin S131072x16x3.rank)
  bcast_S_S131072x16x3 : S_.BroadcastsInDim S131072x16x3 (![] : Fin 0 → Fin S131072x16x3.rank)
  bcast_S131072x3_S131072x1x3_0_2 : S131072x3.BroadcastsInDim S131072x1x3 (![0, 2] : Fin 2 → Fin S131072x1x3.rank)
  bcast_S131072x1x3_S131072x16x3_0_1_2 : S131072x1x3.BroadcastsInDim S131072x16x3 (![0, 1, 2] : Fin 3 → Fin S131072x16x3.rank)
  bcast_S131072x16_S131072x16x32_0_1 : S131072x16.BroadcastsInDim S131072x16x32 (![0, 1] : Fin 2 → Fin S131072x16x32.rank)
  bcast_S_S131072x16x32 : S_.BroadcastsInDim S131072x16x32 (![] : Fin 0 → Fin S131072x16x32.rank)
  concatenates_S131072x16x3_S131072x16x32_S131072x16x35_d2 : Shape.Concatenates [S131072x16x3, S131072x16x32] S131072x16x35 2
  bcast_S_S64 : S_.BroadcastsInDim S64 (![] : Fin 0 → Fin S64.rank)
  bcast_S64_S1x1x64_2 : S64.BroadcastsInDim S1x1x64 (![2] : Fin 1 → Fin S1x1x64.rank)
  bcast_S1x1x64_S131072x16x64_0_1_2 : S1x1x64.BroadcastsInDim S131072x16x64 (![0, 1, 2] : Fin 3 → Fin S131072x16x64.rank)
  bcast_S_S131072x16x64 : S_.BroadcastsInDim S131072x16x64 (![] : Fin 0 → Fin S131072x16x64.rank)
  reducesTo_S131072x16x64_S131072x64_d1 : S131072x16x64.ReducesTo [1] S131072x64
  gather_S524288x3_S131072x1_S131072x3_1_0_n_n_0_1_13_wf : GatherDims.WF S524288x3 S131072x1 S131072x3 [1] [0] [] [0] [] 1 ![1, 3]
  gather_S524288x3_S131072x16x1_S131072x16x3_2_0_n_n_0_2_13_wf : GatherDims.WF S524288x3 S131072x16x1 S131072x16x3 [2] [0] [] [0] [] 2 ![1, 3]
  gather_S524288x32_S131072x16x1_S131072x16x32_2_0_n_n_0_2_132_wf : GatherDims.WF S524288x32 S131072x16x1 S131072x16x32 [2] [0] [] [0] [] 2 ![1, 32]
  dot_S131072x16x35_S35x64_S131072x16x64_2_0_01_1_n_n_wf : DotDims.WF S131072x16x35 S35x64 S131072x16x64 [2] [0] [0, 1] [1] [] []

variable [Facts₀]

def gather_S524288x3_S131072x1_S131072x3_1_0_n_n_0_1_13 : GatherDims S524288x3 S131072x1 S131072x3 where
  offsetDims := [1]
  collapsedSliceDims := [0]
  operandBatchingDims := []
  startIndicesBatchingDims := []
  startIndexMap := [0]
  indexVectorDim := 1
  sliceSizes := ![1, 3]
  wf := gather_S524288x3_S131072x1_S131072x3_1_0_n_n_0_1_13_wf
def gather_S524288x3_S131072x16x1_S131072x16x3_2_0_n_n_0_2_13 : GatherDims S524288x3 S131072x16x1 S131072x16x3 where
  offsetDims := [2]
  collapsedSliceDims := [0]
  operandBatchingDims := []
  startIndicesBatchingDims := []
  startIndexMap := [0]
  indexVectorDim := 2
  sliceSizes := ![1, 3]
  wf := gather_S524288x3_S131072x16x1_S131072x16x3_2_0_n_n_0_2_13_wf
def gather_S524288x32_S131072x16x1_S131072x16x32_2_0_n_n_0_2_132 : GatherDims S524288x32 S131072x16x1 S131072x16x32 where
  offsetDims := [2]
  collapsedSliceDims := [0]
  operandBatchingDims := []
  startIndicesBatchingDims := []
  startIndexMap := [0]
  indexVectorDim := 2
  sliceSizes := ![1, 32]
  wf := gather_S524288x32_S131072x16x1_S131072x16x32_2_0_n_n_0_2_132_wf
def dot_S131072x16x35_S35x64_S131072x16x64_2_0_01_1_n_n : DotDims S131072x16x35 S35x64 S131072x16x64 where
  lhsContracting := [2]
  rhsContracting := [0]
  lhsNonContracting := [0, 1]
  rhsNonContracting := [1]
  lhsBatch := []
  rhsBatch := []
  wf := dot_S131072x16x35_S35x64_S131072x16x64_2_0_01_1_n_n_wf

class Facts : Prop extends Facts₀ where

variable [Facts]
-- ==== Proof.LibNormFold.lean ====
/-
  General facts on the extended reals for a normalisation folded into one scale and one shift.

  A batch normalisation in inference form, (h − u) · (g · r) + b with r = 1 / sqrt(var + eps), is often computed as
  h · s + t with the per-channel constants s = g · r and t = b − (u · g) · r folded ahead of time. On the reals that is
  distributivity. On the extended reals distributivity fails at the infinities in general, but here it holds for
  EVERY extended real h as long as g, r, u, b are real: for h = ±∞ both sides are the infinity of the sign of ±s
  when s ≠ 0 and both are b when s = 0 (0 · ∞ = 0). And r is real whenever var is a non-negative real and eps a
  positive real: the argument of the inverse square root is then a positive real, off its pole at 0 and off the
  negative half-line.
-/
import Idealize.ShloMosaic.PureOps.Ideal

noncomputable section

namespace Cert.Law

open Idealize.ShloMosaic

/-- The inverse square root at a real argument: junk −∞ below zero, +∞ at zero, 1 / sqrt above. -/
theorem rsqrt_coe (y : ℝ) :
    Ideal.rsqrt (y : EReal) = if y < 0 then ⊥ else if y = 0 then ⊤ else (((Real.sqrt y)⁻¹ : ℝ) : EReal) := rfl

/-- 1 / sqrt(v + e) of a non-negative real v and a positive real e is a real number. -/
theorem rsqrt_add_pos_real (v e : ℝ) (hv : 0 ≤ v) (he : 0 < e) :
    ∃ r : ℝ, Ideal.rsqrt ((v : EReal) + (e : EReal)) = (r : EReal) := by
  rw [← EReal.coe_add, rsqrt_coe]
  have h : 0 < v + e := add_pos_of_nonneg_of_pos hv he
  exact ⟨_, by rw [if_neg (not_lt.mpr h.le), if_neg h.ne']⟩

/-- h · s + (b − u · s) = (h − u) · s + b for every extended real h, the scale, mean and offset real. -/
theorem affine (h : EReal) (s u b : ℝ) :
    h * (s : EReal) + ((b : EReal) - ((u * s : ℝ) : EReal)) = (h - (u : EReal)) * (s : EReal) + (b : EReal) := by
  induction h using EReal.rec with
  | bot =>
    rw [EReal.bot_sub]
    rcases lt_trichotomy s 0 with hs | hs | hs
    · rw [EReal.bot_mul_coe_of_neg hs, ← EReal.coe_sub, EReal.top_add_coe, EReal.top_add_coe]
    · subst hs
      simp
    · rw [EReal.bot_mul_coe_of_pos hs, EReal.bot_add, EReal.bot_add]
  | coe x =>
    rw [← EReal.coe_sub, ← EReal.coe_mul, ← EReal.coe_add, ← EReal.coe_sub, ← EReal.coe_mul, ← EReal.coe_add]
    congr 1
    ring
  | top =>
    rw [EReal.top_sub_coe]
    rcases lt_trichotomy s 0 with hs | hs | hs
    · rw [EReal.top_mul_coe_of_neg hs, EReal.bot_add, EReal.bot_add]
    · subst hs
      simp
    · rw [EReal.top_mul_coe_of_pos hs, ← EReal.coe_sub, EReal.top_add_coe, EReal.top_add_coe]

/-- The folded and the unfolded normalisation at one element: gain g, inverse standard deviation r, mean u, offset b
    real, h any extended real: h · (g · r) + (b − (u · g) · r) = (h − u) · (g · r) + b. -/
theorem normalise (h : EReal) (g r u b : ℝ) :
    h * ((g : EReal) * (r : EReal)) + ((b : EReal) - (u : EReal) * (g : EReal) * (r : EReal))
      = (h - (u : EReal)) * ((g : EReal) * (r : EReal)) + (b : EReal) := by
  have e := affine h (g * r) u b
  rw [EReal.coe_mul, EReal.coe_mul, EReal.coe_mul] at e
  rw [← e, mul_assoc]

end Cert.Law

end
-- ==== Proof.Law.lean ====
/-
  The constants of this kernel's normalisation, and its inverse standard deviation being real.

  The stability constant is the f32 nearest 1e-5, a positive real; the maximum over the neighbours starts from −∞.
  With a non-negative real variance, var + eps is a positive real and 1 / sqrt(var + eps) a real number — which
  is what the law joining the two programs' arrangements of the normalisation (the general facts imported here) asks.
-/
import proofs.«154620_j31817117728962_1_alg».proof.Proof.LibNormFold
import Idealize.ShloMosaic.PureOps.Ideal.Laws

noncomputable section

namespace Cert.Law

open Idealize.ShloMosaic

/-- The stability constant, the f32 nearest 1e-5, as a real. -/
theorem eps_eq : Ideal.ofBits .f32 0x3727C5AC#32 = (((10995116 : ℝ) * (2 : ℝ) ^ (-40 : ℤ) : ℝ) : EReal) := by
  simp [Ideal.ofBits, Ideal.ieee, -EReal.coe_mul]

theorem eps_pos : (0 : ℝ) < (10995116 : ℝ) * (2 : ℝ) ^ (-40 : ℤ) := by positivity

/-- The pattern the maximum over the neighbours starts from is −∞. -/
theorem neg_inf : Ideal.ofBits .f32 0xFF800000#32 = ⊥ := by simp [Ideal.ofBits, Ideal.ieee]

/-- 1 / sqrt(v + eps) of a non-negative real variance is a real number. -/
theorem rsqrt_real (v : ℝ) (hv : 0 ≤ v) :
    ∃ r : ℝ, Ideal.rsqrt ((v : EReal) + Ideal.ofBits .f32 0x3727C5AC#32) = (r : EReal) := by
  rw [eps_eq]
  exact rsqrt_add_pos_real v _ hv eps_pos

end Cert.Law

end
-- ==== Proof.Spec.lean ====
/-
  The value both programs compute, index by index.

  For a query q and an output channel o the result is the maximum, over the sixteen neighbours k and starting from
  −∞, of max(z, 0), where z normalises h = ∑ᵢ X[q, k, i] · W[i, o] (the 35 grouped channels contracted with the
  weights). The kernel is handed one scale row and one shift row and forms h · s + t; the reference forms
  (h − u) · s + b from the mean u, the scale s and the offset b. With s = g · r and t = b − (u · g) · r, all of g, r,
  u, b real, these are the same extended real for every h, so the two maxima agree.
-/
import Idealize.ShloMosaic.Lib.ValueIdx
import proofs.«154620_j31817117728962_1_alg».proof.Proof.Law

noncomputable section

namespace Cert.Spec

open Idealize.ShloMosaic Idealize.ShloMosaic.ValueIdx

/-- One output element in the kernel's form: rows `x k` of the grouped operand, the weight column `w`, scale and shift. -/
def cellK (x : Fin 16 → Fin 35 → EReal) (w : Fin 35 → EReal) (s t : EReal) : EReal :=
  (Finset.univ : Finset (Fin 16)).fold max ⊥ fun k => max ((∑ i : Fin 35, x k i * w i) * s + t) 0

/-- The same element in the reference's form: mean, scale and offset. -/
def cellR (x : Fin 16 → Fin 35 → EReal) (w : Fin 35 → EReal) (u s b : EReal) : EReal :=
  (Finset.univ : Finset (Fin 16)).fold max ⊥ fun k => max (((∑ i : Fin 35, x k i * w i) - u) * s + b) 0

/-- With real gain, inverse standard deviation, mean and offset the two forms are one value. -/
theorem cell_eq (x : Fin 16 → Fin 35 → EReal) (w : Fin 35 → EReal) (g r u b : ℝ) :
    cellK x w ((g : EReal) * (r : EReal)) ((b : EReal) - (u : EReal) * (g : EReal) * (r : EReal))
      = cellR x w (u : EReal) ((g : EReal) * (r : EReal)) (b : EReal) := by
  unfold cellK cellR
  refine congrArg (fun f => (Finset.univ : Finset (Fin 16)).fold max ⊥ f) (funext fun k => ?_)
  rw [Cert.Law.normalise]

/-- The kernel's result array from the grouped operand, the weights, and the scale and shift rows it is handed. -/
def outK (X : (⟨3, ![131072, 16, 35]⟩ : Shape).Idx → EReal) (W : (⟨2, ![35, 64]⟩ : Shape).Idx → EReal)
    (sc sf : (⟨2, ![1, 64]⟩ : Shape).Idx → EReal) : (⟨2, ![131072, 64]⟩ : Shape).Idx → EReal :=
  fun j => cellK (fun k i => X (ix3 (j 0) k i)) (fun i => W (ix2 i (j 1))) (sc (ix2 0 (j 1))) (sf (ix2 0 (j 1)))

theorem outK_apply (X : (⟨3, ![131072, 16, 35]⟩ : Shape).Idx → EReal) (W : (⟨2, ![35, 64]⟩ : Shape).Idx → EReal)
    (sc sf : (⟨2, ![1, 64]⟩ : Shape).Idx → EReal) (q : Fin 131072) (o : Fin 64) :
    outK X W sc sf (ix2 q o)
      = cellK (fun k i => X (ix3 q k i)) (fun i => W (ix2 i o)) (sc (ix2 0 o)) (sf (ix2 0 o)) := rfl

/-- The reference's result array from the grouped operand, the weights, and the per-channel gain, offset, mean and
    inverse standard deviation. -/
def outR (X : (⟨3, ![131072, 16, 35]⟩ : Shape).Idx → EReal) (W : (⟨2, ![35, 64]⟩ : Shape).Idx → EReal)
    (g b u r : (⟨1, ![64]⟩ : Shape).Idx → EReal) : (⟨2, ![131072, 64]⟩ : Shape).Idx → EReal :=
  fun j => cellR (fun k i => X (ix3 (j 0) k i)) (fun i => W (ix2 i (j 1))) (u (ix1 (j 1)))
    (g (ix1 (j 1)) * r (ix1 (j 1))) (b (ix1 (j 1)))

theorem outR_apply (X : (⟨3, ![131072, 16, 35]⟩ : Shape).Idx → EReal) (W : (⟨2, ![35, 64]⟩ : Shape).Idx → EReal)
    (g b u r : (⟨1, ![64]⟩ : Shape).Idx → EReal) (q : Fin 131072) (o : Fin 64) :
    outR X W g b u r (ix2 q o)
      = cellR (fun k i => X (ix3 q k i)) (fun i => W (ix2 i o)) (u (ix1 o)) (g (ix1 o) * r (ix1 o)) (b (ix1 o)) := rfl

end Cert.Spec

end
-- ==== Proof.KernelPay.lean ====
/-
  The kernel body's arithmetic, read at one element of its output block.

  The body flattens its [1024, 16, 35] input block to 16384 rows (row 16 p + k is neighbour k of the block's
  query p), multiplies by the [35, 64] weights on the matrix unit into a zero accumulator, folds the rows back to
  [1024, 16, 64], multiplies by the scale row and adds the shift row (each broadcast over queries and neighbours),
  takes the maximum with zero and reduces the neighbour axis by a maximum from −∞. At the extended reals the
  format change before the product is the identity and the product is the plain sum over the 35 channels.
-/
import proofs.«154620_j31817117728962_1_alg».proof.Proof.Gen.KernelIdeal.Skeleton
import proofs.«154620_j31817117728962_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The matrix product's dimension numbers: rows by the 35 channels, channels by the 64 outputs. -/
abbrev D : DotDims S16384x35 S35x64 S16384x64 := dot_S16384x35_S35x64_S16384x64_1_0_0_1_n_n

theorem lhs0 (j : S16384x64.Idx) (q : D.contr.Idx) : (D.lhsIdx j q 0).val = (j 0).val := by
  unfold DotDims.lhsIdx
  rw [dif_neg (show ¬(0 : Fin S16384x35.rank) ∈ D.lhsBatch by decide),
    dif_pos (show (0 : Fin S16384x35.rank) ∈ D.lhsNonContracting by decide)]
  rfl

theorem lhs1 (j : S16384x64.Idx) (q : D.contr.Idx) : (D.lhsIdx j q 1).val = (q ⟨0, by decide⟩).val :=
  D.lhsIdx_val_of_single rfl j q

theorem rhs0 (j : S16384x64.Idx) (q : D.contr.Idx) : (D.rhsIdx j q 0).val = (q ⟨0, by decide⟩).val :=
  D.rhsIdx_val_of_single rfl j q

theorem rhs1 (j : S16384x64.Idx) (q : D.contr.Idx) : (D.rhsIdx j q 1).val = (j 1).val := by
  unfold DotDims.rhsIdx
  rw [dif_neg (show ¬(1 : Fin S35x64.rank) ∈ D.rhsBatch by decide),
    dif_pos (show (1 : Fin S35x64.rank) ∈ D.rhsNonContracting by decide)]
  rfl

/-- The product into the zero accumulator at (row, channel): the sum over the 35 contracted channels. -/
theorem matmul_at (a : FVec Ideal S16384x35 .bf16) (b : FVec Ideal S35x64 .bf16) (q : Fin 16384) (o : Fin 64) :
    matmul D none a b (constant (F := Ideal) S16384x64 .f32 0x00000000#32) (ix2 q o) = ∑ i : Fin 35, a (ix2 q i) * b (ix2 i o) := by
  refine (Ideal.matmul_constant_zero_apply D none a b (ix2 q o)).trans ?_
  rw [← Equiv.sum_comp (contrEquiv1 D 35 rfl rfl).symm]
  refine Finset.sum_congr rfl fun k _ => ?_
  have hk := contrEquiv1_symm_val D 35 rfl rfl k
  have el : D.lhsIdx (ix2 q o) ((contrEquiv1 D 35 rfl rfl).symm k) = ix2 q k := funext fun c => Fin.ext (by
    match c with
    | ⟨0, _⟩ => exact lhs0 _ _
    | ⟨1, _⟩ => exact (lhs1 _ _).trans hk)
  have er : D.rhsIdx (ix2 q o) ((contrEquiv1 D 35 rfl rfl).symm k) = ix2 k o := funext fun c => Fin.ext (by
    match c with
    | ⟨0, _⟩ => exact (rhs0 _ _).trans hk
    | ⟨1, _⟩ => exact rhs1 _ _)
  rw [el, er]

/-- Row 16 p + k of the flattened block. -/
def row (p : Fin 1024) (k : Fin 16) : Fin 16384 := ⟨p.val * 16 + k.val, by have := p.isLt; have := k.isLt; omega⟩

/-- The block's rows contracted with the weights, folded back to [query, neighbour, channel]. -/
def hmat (x0 : Vec Ideal S1024x16x35 .f32) (x1 : Vec Ideal S35x64 .f32) : FVec Ideal S1024x16x64 .f32 :=
  shapeCast S1024x16x64
    (matmul D none
      (truncf .bf16 (shapeCast S16384x35 (shapeCast S1024x16x35 x0 shapeCasts_S1024x16x35_S1024x16x35) shapeCasts_S1024x16x35_S16384x35) bitsLt_bf16_f32)
      (truncf .bf16 x1 bitsLt_bf16_f32) (constant S16384x64 .f32 0x00000000#32))
    shapeCasts_S16384x64_S1024x16x64

/-- A [1, 64] row broadcast over queries and neighbours. -/
def bcRow (x : Vec Ideal S1x64 .f32) : FVec Ideal S1024x16x64 .f32 :=
  broadcastTo S1024x16x64 (shapeCast S1x1x64 (shapeCast S1x64 x shapeCasts_S1x64_S1x64) shapeCasts_S1x64_S1x1x64)
    broadcasts_S1x1x64_S1024x16x64

theorem hmat_apply (x0 : Vec Ideal S1024x16x35 .f32) (x1 : Vec Ideal S35x64 .f32) (p : Fin 1024) (k : Fin 16) (o : Fin 64) :
    hmat x0 x1 (ix3 p k o) = ∑ i : Fin 35, x0 (ix3 p k i) * x1 (ix2 i o) := by
  unfold hmat
  refine (shapeCast_apply _ _ (ix3 p k o) (ix2 (row p k) o)
    (by rw [Shape.rowMajor_val_two, Shape.rowMajor_val_three]; rfl)).trans ?_
  refine (matmul_at _ _ (row p k) o).trans ?_
  refine Finset.sum_congr rfl fun i _ => ?_
  refine congrArg (· * x1 (ix2 i o)) ?_
  show shapeCast S16384x35 (shapeCast S1024x16x35 x0 shapeCasts_S1024x16x35_S1024x16x35) shapeCasts_S1024x16x35_S16384x35 (ix2 (row p k) i) = _
  rw [shapeCast_self]
  exact shapeCast_apply x0 _ (ix2 (row p k) i) (ix3 p k i)
    (by rw [Shape.rowMajor_val_two, Shape.rowMajor_val_three]; rfl)

theorem bcRow_apply (x : Vec Ideal S1x64 .f32) (p : Fin 1024) (k : Fin 16) (o : Fin 64) :
    bcRow x (ix3 p k o) = x (ix2 0 o) := by
  unfold bcRow
  rw [shapeCast_self]
  refine (broadcastTo_apply _ _ (ix3 p k o) (ix3 0 0 o) (fun a => by
    match a with
    | ⟨0, _⟩ => rfl
    | ⟨1, _⟩ => rfl
    | ⟨2, _⟩ => rfl)).trans ?_
  exact shapeCast_apply x _ (ix3 0 0 o) (ix2 0 o) (by rw [Shape.rowMajor_val_two, Shape.rowMajor_val_three]; rfl)

/-- The value before the reduction over neighbours: the product scaled and shifted, then the maximum with zero. -/
def pre (x0 : Vec Ideal S1024x16x35 .f32) (x1 : Vec Ideal S35x64 .f32) (x2 x3 : Vec Ideal S1x64 .f32) : FVec Ideal S1024x16x64 .f32 :=
  maximumf (addf (mulf (hmat x0 x1) (bcRow x2)) (bcRow x3)) (broadcast S1024x16x64 (Scalar.ofBits .f32 0x00000000#32))

theorem pre_apply (x0 : Vec Ideal S1024x16x35 .f32) (x1 : Vec Ideal S35x64 .f32) (x2 x3 : Vec Ideal S1x64 .f32)
    (p : Fin 1024) (k : Fin 16) (o : Fin 64) :
    pre x0 x1 x2 x3 (ix3 p k o) = max ((∑ i : Fin 35, x0 (ix3 p k i) * x1 (ix2 i o)) * x2 (ix2 0 o) + x3 (ix2 0 o)) 0 := by
  unfold pre
  show max (hmat x0 x1 (ix3 p k o) * bcRow x2 (ix3 p k o) + bcRow x3 (ix3 p k o)) (Ideal.ofBits .f32 0x00000000#32) = _
  rw [hmat_apply, bcRow_apply, bcRow_apply, Ideal.ofBits_zero_f32]

/-- The body's one stored value: the maximum of that value over the neighbour axis. -/
theorem pay_eq (x0 : Vec Ideal S1024x16x35 .f32) (x1 : Vec Ideal S35x64 .f32) (x2 x3 : Vec Ideal S1x64 .f32) :
    k0_pay1 x0 x1 x2 x3
      = multiReduction .maximumf [1] S1024x64 (pre x0 x1 x2 x3) 0xFF800000#32 reduces_S1024x16x64_S1024x64 (.inl rfl) rfl := rfl

/-- The maximum over the neighbour axis at (query, channel): the fold of max from −∞ over the sixteen neighbours. -/
theorem maxRed (src : FVec Ideal S1024x16x64 .f32) (hφ : FKind.Formats .f32)
    (hacc : (0xFF800000#32 : BitVec 32) = FKind.maximumf.neutral .f32 hφ) (p : Fin 1024) (o : Fin 64) :
    multiReduction .maximumf [1] S1024x64 src 0xFF800000#32 reduces_S1024x16x64_S1024x64 hφ hacc (ix2 p o)
      = (Finset.univ : Finset (Fin 16)).fold max ⊥ (fun k => src (ix3 p k o)) := by
  refine (Ideal.multiReduction_maximumf_single src 0xFF800000#32 reduces_S1024x16x64_S1024x64 hφ hacc (ix2 p o)).trans ?_
  have hl : ∀ k : Fin 16, reduces_S1024x16x64_S1024x64.lift (ix2 p o) k = ix3 p k o := fun k => funext fun c => Fin.ext (by
    match c with
    | ⟨0, _⟩ => rfl
    | ⟨1, _⟩ => rfl
    | ⟨2, _⟩ => rfl)
  show (Finset.univ : Finset (Fin 16)).fold max (Ideal.ofBits .f32 0xFF800000#32)
    (fun k => src (reduces_S1024x16x64_S1024x64.lift (ix2 p o) k)) = _
  rw [Cert.Law.neg_inf]
  refine congrArg (fun f => (Finset.univ : Finset (Fin 16)).fold max ⊥ f) (funext fun k => ?_)
  exact congrArg src (hl k)

/-- The stored value at (query p of the block, channel o): the element's value in the kernel's form. -/
theorem pay_apply (x0 : Vec Ideal S1024x16x35 .f32) (x1 : Vec Ideal S35x64 .f32) (x2 x3 : Vec Ideal S1x64 .f32)
    (p : Fin 1024) (o : Fin 64) :
    k0_pay1 x0 x1 x2 x3 (ix2 p o)
      = Cert.Spec.cellK (fun k i => x0 (ix3 p k i)) (fun i => x1 (ix2 i o)) (x2 (ix2 0 o)) (x3 (ix2 0 o)) := by
  rw [pay_eq]
  refine (maxRed (pre x0 x1 x2 x3) (.inl rfl) rfl p o).trans ?_
  unfold Cert.Spec.cellK
  refine congrArg (fun f => (Finset.univ : Finset (Fin 16)).fold max ⊥ f) (funext fun k => ?_)
  exact pre_apply x0 x1 x2 x3 p k o

end Cert.KernelIdeal.Pay

end
-- ==== Proof.KernelBlocks.lean ====
/-
  The windows' blocks at a grid point, read off the arrays the region finds.

  Grid point t handles the 1024 queries 1024 t … 1024 t + 1023: its grouped block is those queries' rows of the
  grouped operand; the weights, the scale row and the shift row are whole at every point.
-/
import proofs.«154620_j31817117728962_1_alg».proof.Proof.Gen.KernelIdeal.Value
import proofs.«154620_j31817117728962_1_alg».proof.Proof.KernelPay
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the grouped operand and the result move with the point along the query
    axis, the weights and the two rows stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grouped block at point t: rows 1024 t + p of the grouped operand. -/
theorem blk0_apply (c : Dev nD) (t : Fin cfg0.N) (p : Fin 1024) (k : Fin 16) (i : Fin 35) (hq : t.val * 1024 + p.val < 131072) :
    (iblk m c 0 t : Vec Ideal S1024x16x35 .f32) (ix3 p k i)
      = (V m c main_v6 : S131072x16x35.Idx → EReal) (ix3 ⟨t.val * 1024 + p.val, hq⟩ k i) := by
  obtain ⟨e0, e1, e2, -⟩ := idx_facts t
  unfold iblk
  rw [View.read_apply]
  show V m c main_v6 (((cfg0.win 0).blk t).view.emb (ix3 p k i)) = V m c main_v6 _
  refine congrArg (fun x => V m c main_v6 x) (funext fun a => Fin.ext ?_)
  match a with
  | ⟨0, _⟩ => show win0_0.index t (0 : Fin 3) * 1024 + 1 * p.val = t.val * 1024 + p.val; rw [e0]; omega
  | ⟨1, _⟩ => show win0_0.index t (1 : Fin 3) * 16 + 1 * k.val = k.val; rw [e1]; omega
  | ⟨2, _⟩ => show win0_0.index t (2 : Fin 3) * 35 + 1 * i.val = i.val; rw [e2]; omega

/-- The weights' block is the whole array at every point. -/
theorem blk1_apply (c : Dev nD) (t : Fin cfg0.N) (i : Fin 35) (o : Fin 64) :
    (iblk m c 1 t : Vec Ideal S35x64 .f32) (ix2 i o) = (V m c main_arg4 : S35x64.Idx → EReal) (ix2 i o) := by
  obtain ⟨-, -, -, e3, e4, -⟩ := idx_facts t
  unfold iblk
  rw [View.read_apply]
  show V m c main_arg4 (((cfg0.win 1).blk t).view.emb (ix2 i o)) = V m c main_arg4 _
  refine congrArg (fun x => V m c main_arg4 x) (funext fun a => Fin.ext ?_)
  match a with
  | ⟨0, _⟩ => show win0_1.index t (0 : Fin 2) * 35 + 1 * i.val = i.val; rw [e3]; omega
  | ⟨1, _⟩ => show win0_1.index t (1 : Fin 2) * 64 + 1 * o.val = o.val; rw [e4]; omega

/-- The scale row's block is the whole row. -/
theorem blk2_apply (c : Dev nD) (t : Fin cfg0.N) (o : Fin 64) :
    (iblk m c 2 t : Vec Ideal S1x64 .f32) (ix2 0 o) = (V m c main_v11 : S1x64.Idx → EReal) (ix2 0 o) := by
  obtain ⟨-, -, -, -, -, e5, e6, -⟩ := idx_facts t
  unfold iblk
  rw [View.read_apply]
  show V m c main_v11 (((cfg0.win 2).blk t).view.emb (ix2 0 o)) = V m c main_v11 _
  refine congrArg (fun x => V m c main_v11 x) (funext fun a => Fin.ext ?_)
  match a with
  | ⟨0, _⟩ => show win0_2.index t (0 : Fin 2) * 1 + 1 * 0 = 0; rw [e5]
  | ⟨1, _⟩ => show win0_2.index t (1 : Fin 2) * 64 + 1 * o.val = o.val; rw [e6]; omega

/-- The shift row's block is the whole row. -/
theorem blk3_apply (c : Dev nD) (t : Fin cfg0.N) (o : Fin 64) :
    (iblk m c 3 t : Vec Ideal S1x64 .f32) (ix2 0 o) = (V m c main_v15 : S1x64.Idx → EReal) (ix2 0 o) := by
  obtain ⟨-, -, -, -, -, -, -, e7, e8, -⟩ := idx_facts t
  unfold iblk
  rw [View.read_apply]
  show V m c main_v15 (((cfg0.win 3).blk t).view.emb (ix2 0 o)) = V m c main_v15 _
  refine congrArg (fun x => V m c main_v15 x) (funext fun a => Fin.ext ?_)
  match a with
  | ⟨0, _⟩ => show win0_3.index t (0 : Fin 2) * 1 + 1 * 0 = 0; rw [e7]
  | ⟨1, _⟩ => show win0_3.index t (1 : Fin 2) * 64 + 1 * o.val = o.val; rw [e8]; omega

end Cert.KernelIdeal.Hand

end
-- ==== Proof.KernelValue.lean ====
/-
  From blocks to the array: the kernel's result array as one function of the arrays the region finds.

  Grid point t handles the 1024 queries 1024 t … 1024 t + 1023: its grouped block is those queries' rows, the
  weights and the scale and shift rows are whole at every point, and it writes back rows 1024 t … 1024 t + 1023
  of the result, all 64 channels. So what point t writes back is the block at t of the whole-array function, and
  since row r lies in point r / 1024's block the 128 blocks cover the array.
-/
import proofs.«154620_j31817117728962_1_alg».proof.Proof.Gen.KernelIdeal.Value
import proofs.«154620_j31817117728962_1_alg».proof.Proof.KernelPay
import proofs.«154620_j31817117728962_1_alg».proof.Proof.KernelBlocks
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as one function of the arrays the region finds. -/
def result (c : Dev nD) : S131072x64.Idx → EReal :=
  Cert.Spec.outK (V m c main_v6) (V m c main_arg4) (V m c main_v11) (V m c main_v15)

/-- What the body stores at point t, element by element, is that function at the element's place in the array. -/
theorem point_eq (c : Dev nD) (t : Fin cfg0.N) (j : S1024x64.Idx) :
    k0_pay1 (iblk m c 0 t : Vec Ideal S1024x16x35 .f32) (iblk m c 1 t : Vec Ideal S35x64 .f32)
        (iblk m c 2 t : Vec Ideal S1x64 .f32) (iblk m c 3 t : Vec Ideal S1x64 .f32) j
      = result m c (((cfg0.win 4).blk t).view.emb j) := by
  obtain ⟨p, o, rfl⟩ : ∃ (p : Fin 1024) (o : Fin 64), j = ix2 p o := ⟨j 0, j 1, eq_ix2 j⟩
  have hN : cfg0.N = 128 := N_0
  have hq : t.val * 1024 + p.val < 131072 := by have := t.isLt; have := p.isLt; omega
  obtain ⟨-, -, -, -, -, -, -, -, -, e9, e10⟩ := idx_facts t
  have hemb : ((cfg0.win 4).blk t).view.emb (ix2 p o) = (ix2 ⟨t.val * 1024 + p.val, hq⟩ o : S131072x64.Idx) :=
    funext fun a => Fin.ext (by
      match a with
      | ⟨0, _⟩ => show win0_4.index t (0 : Fin 2) * 1024 + 1 * p.val = t.val * 1024 + p.val; rw [e9]; omega
      | ⟨1, _⟩ => show win0_4.index t (1 : Fin 2) * 64 + 1 * o.val = o.val; rw [e10]; omega)
  rw [hemb]
  unfold result
  refine (Cert.KernelIdeal.Pay.pay_apply (iblk m c 0 t : Vec Ideal S1024x16x35 .f32) (iblk m c 1 t : Vec Ideal S35x64 .f32)
    (iblk m c 2 t : Vec Ideal S1x64 .f32) (iblk m c 3 t : Vec Ideal S1x64 .f32) p o).trans ?_
  show _ = Cert.Spec.cellK (fun k i => (V m c main_v6 : S131072x16x35.Idx → EReal) (ix3 ⟨t.val * 1024 + p.val, hq⟩ k i))
    (fun i => (V m c main_arg4 : S35x64.Idx → EReal) (ix2 i o)) ((V m c main_v11 : S1x64.Idx → EReal) (ix2 0 o))
    ((V m c main_v15 : S1x64.Idx → EReal) (ix2 0 o))
  have h0 : (fun (k : Fin 16) (i : Fin 35) => (iblk m c 0 t : Vec Ideal S1024x16x35 .f32) (ix3 p k i))
      = fun k i => (V m c main_v6 : S131072x16x35.Idx → EReal) (ix3 ⟨t.val * 1024 + p.val, hq⟩ k i) :=
    funext fun k => funext fun i => blk0_apply m c t p k i hq
  have h1 : (fun i : Fin 35 => (iblk m c 1 t : Vec Ideal S35x64 .f32) (ix2 i o))
      = fun i => (V m c main_arg4 : S35x64.Idx → EReal) (ix2 i o) := funext fun i => blk1_apply m c t i o
  rw [h0, h1, blk2_apply m c t o, blk3_apply m c t o]

/-- The body's one store covers its whole buffer, so the buffer ends at the stored value. -/
theorem out_eq_pay (x0 : Vec Ideal S1024x16x35 .f32) (x1 : Vec Ideal S35x64 .f32) (x2 x3 : Vec Ideal S1x64 .f32) :
    out0_4 x0 x1 x2 x3 = k0_pay1 x0 x1 x2 x3 := by
  unfold out0_4
  rw [View.canon_unit_zero hz2, View.ld_unit_zero (S := S1024x16x35) hz3, View.ld_unit_zero (S := S35x64) hz2,
    View.ld_unit_zero (S := S1x64) hz2, View.ld_unit_zero (S := S1x64) hz2]

/-- A block that is, element by element, a function of the array index at the element's place is that function
    read through the block: reading through a block is looking up the element's place. -/
theorem read_eq_of_point (G : S131072x64.Idx → EReal) (B : S1024x64.Idx → EReal) (t : Fin cfg0.N)
    (h : ∀ j : S1024x64.Idx, B j = G (((cfg0.win 4).blk t).view.emb j)) :
    (cfg0.win 4).cut (grid0.coords t) B = ((cfg0.win 4).blk t).view.read (Elt Ideal) G := by
  funext j
  exact h j

/-- WHAT POINT t WRITES BACK is the block at t of the result function. -/
theorem flushed_eq (c : Dev nD) (t : Fin cfg0.N) :
    (dats m 0 c).flushed 4 t = ((cfg0.win 4).blk t).view.read (Elt Ideal) (result m c) := by
  rw [Value.flushed4, out_eq_pay (iblk m c 0 t) (iblk m c 1 t) (iblk m c 2 t) (iblk m c 3 t)]
  exact read_eq_of_point (result m c)
    (k0_pay1 (iblk m c 0 t : Vec Ideal S1024x16x35 .f32) (iblk m c 1 t : Vec Ideal S35x64 .f32)
      (iblk m c 2 t : Vec Ideal S1x64 .f32) (iblk m c 3 t : Vec Ideal S1x64 .f32)) t (point_eq m c t)

/-- An index of the array is in point t's block iff each coordinate is in the block's range on its axis. -/
theorem mem_blk (t : Fin cfg0.N) (i : S131072x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v16).slice (win0_4.rect t)).set ↔ _
  rw [View.set_slice_whole, Rect.mem_set_unit]
  exact Iff.rfl

/-- Row r of the result lies in the block of point r / 1024. -/
theorem cover (i : S131072x64.Idx) : ∃ t : Fin cfg0.N, (cfg0.win 4).flush t = true ∧ i ∈ ((cfg0.win 4).blk t).view.set := by
  have h0 : (i 0).val < 131072 := (i 0).isLt
  have h1 : (i 1).val < 64 := (i 1).isLt
  have hN : cfg0.N = 128 := N_0
  have ht : (i 0).val / 1024 < cfg0.N := by rw [hN]; omega
  obtain ⟨-, -, -, -, -, -, -, -, -, e9, e10⟩ := idx_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [e9]
    show (i 0).val / 1024 * 1024 ≤ (i 0).val ∧ (i 0).val < (i 0).val / 1024 * 1024 + 1024
    omega
  | ⟨1, _⟩ =>
    show win0_4.index ⟨(i 0).val / 1024, ht⟩ (1 : Fin 2) * 64 ≤ (i 1).val
      ∧ (i 1).val < win0_4.index ⟨(i 0).val / 1024, ht⟩ (1 : Fin 2) * 64 + 64
    rw [e10]
    omega

/-- THE ARRAY after the run is the result function of the arrays the region finds. -/
theorem final (c : Dev nD) : (dats m 0 c).arrAt 4 cfg0.N = result m c :=
  (dats m 0 c).arrAt_eq_of_cover 4 (result m c) (fun t _ => flushed_eq m c t) cover

end Cert.KernelIdeal.Hand

end
-- ==== Proof.Stages.lean ====
/-
  The host stages the two programs share, as pure functions of the argument arrays.

  Both programs gather rows with `jnp.take`: an index below zero counts from the end (i + n), an index still outside
  [0, n − 1] is masked, the rows at the start indices are gathered, and a masked row is filled with the fill value.
  The query point's row is subtracted from its sixteen neighbours' coordinates, coordinates and features are
  concatenated along the channel axis into the grouped operand [131072, 16, 35], and the variance is turned into
  the inverse standard deviation 1 / sqrt(var + eps). Neither side's proof opens the gathers: the two programs apply
  the same functions to the same arguments.
-/
import proofs.«154620_j31817117728962_1_alg».proof.Proof.Gen.KernelIdeal

noncomputable section

namespace Cert.Stages

open Idealize.ShloMosaic Cert.KernelIdeal Cert.KernelIdeal.Gen

variable {F : FTy → Type} [FloatOps F]

/-! ## `jnp.take` by one index per query -/

/-- A negative index counts from the end of the 524288 rows. -/
def wrapQ (i : IVec S131072 32) : IVec S131072 32 :=
  select (cmpi .slt i (broadcastInDim S131072 ![] bcast_S_S131072 (constantI S_ 32 0#32)))
    (addi i (broadcastInDim S131072 ![] bcast_S_S131072 (constantI S_ 32 524288#32))) i

/-- The start indices of the gather: the wrapped index as a column. -/
def startsQ (i : IVec S131072 32) : IVec S131072x1 32 :=
  broadcastInDim S131072x1 ![0] bcast_S131072_S131072x1_0 (wrapQ i)

/-- Whether the wrapped index lies in [0, 524287]. -/
def validQ (i : IVec S131072 32) : IVec S131072 1 :=
  Host.reduce IntOp.andi
    (andi (cmpi .sge (startsQ i) (broadcastInDim S131072x1 ![] bcast_S_S131072x1 (constantI S_ 32 0#32)))
      (cmpi .sle (startsQ i) (broadcastInDim S131072x1 ![0, 1] bcast_S1x1_S131072x1_0_1
        (broadcastInDim S1x1 ![1] bcast_S1_S1x1_1 (constantI S1 32 524287#32)))))
    (constantI S_ 1 1#1) reducesTo_S131072x1_S131072_d1 h_S_

/-- The query points' coordinates: row `i[q]` of the point table, the fill value where the index is out of range. -/
def takeQ (x : FVec F S524288x3 .f32) (i : IVec S131072 32) : FVec F S131072x3 .f32 :=
  select (broadcastInDim S131072x3 ![0] bcast_S131072_S131072x3_0 (validQ i))
    (Host.gather gather_S524288x3_S131072x1_S131072x3_1_0_n_n_0_1_13 x (startsQ i))
    (broadcastInDim S131072x3 ![] bcast_S_S131072x3 (constant S_ .f32 0x7FC00000#32))

/-! ## `jnp.take` by sixteen neighbour indices per query -/

def wrapN (i : IVec S131072x16 32) : IVec S131072x16 32 :=
  select (cmpi .slt i (broadcastInDim S131072x16 ![] bcast_S_S131072x16 (constantI S_ 32 0#32)))
    (addi i (broadcastInDim S131072x16 ![] bcast_S_S131072x16 (constantI S_ 32 524288#32))) i

def startsN (i : IVec S131072x16 32) : IVec S131072x16x1 32 :=
  broadcastInDim S131072x16x1 ![0, 1] bcast_S131072x16_S131072x16x1_0_1 (wrapN i)

def validN (i : IVec S131072x16 32) : IVec S131072x16 1 :=
  Host.reduce IntOp.andi
    (andi (cmpi .sge (startsN i) (broadcastInDim S131072x16x1 ![] bcast_S_S131072x16x1 (constantI S_ 32 0#32)))
      (cmpi .sle (startsN i) (broadcastInDim S131072x16x1 ![0, 1, 2] bcast_S1x1x1_S131072x16x1_0_1_2
        (broadcastInDim S1x1x1 ![2] bcast_S1_S1x1x1_2 (constantI S1 32 524287#32)))))
    (constantI S_ 1 1#1) reducesTo_S131072x16x1_S131072x16_d2 h_S_

/-- The neighbours' coordinates. -/
def takeN3 (x : FVec F S524288x3 .f32) (i : IVec S131072x16 32) : FVec F S131072x16x3 .f32 :=
  select (broadcastInDim S131072x16x3 ![0, 1] bcast_S131072x16_S131072x16x3_0_1 (validN i))
    (Host.gather gather_S524288x3_S131072x16x1_S131072x16x3_2_0_n_n_0_2_13 x (startsN i))
    (broadcastInDim S131072x16x3 ![] bcast_S_S131072x16x3 (constant S_ .f32 0x7FC00000#32))

/-- The neighbours' features. -/
def takeN32 (x : FVec F S524288x32 .f32) (i : IVec S131072x16 32) : FVec F S131072x16x32 .f32 :=
  select (broadcastInDim S131072x16x32 ![0, 1] bcast_S131072x16_S131072x16x32_0_1 (validN i))
    (Host.gather gather_S524288x32_S131072x16x1_S131072x16x32_2_0_n_n_0_2_132 x (startsN i))
    (broadcastInDim S131072x16x32 ![] bcast_S_S131072x16x32 (constant S_ .f32 0x7FC00000#32))

/-! ## The grouped operand and the inverse standard deviation -/

/-- Per query and neighbour: the neighbour's coordinates relative to the query point (3 channels), then its
    features (32 channels). -/
def grouped (point : FVec F S524288x3 .f32) (feat : FVec F S524288x32 .f32) (idx : IVec S131072x16 32)
    (sidx : IVec S131072 32) : FVec F S131072x16x35 .f32 :=
  concatenate S131072x16x35 2
    [⟨S131072x16x3, subf (takeN3 point idx)
        (broadcastInDim S131072x16x3 ![0, 1, 2] bcast_S131072x1x3_S131072x16x3_0_1_2
          (broadcastInDim S131072x1x3 ![0, 2] bcast_S131072x3_S131072x1x3_0_2 (takeQ point sidx)))⟩,
     ⟨S131072x16x32, takeN32 feat idx⟩]
    concatenates_S131072x16x3_S131072x16x32_S131072x16x35_d2

/-- 1 / sqrt(var + eps), channel by channel (eps the f32 nearest 1e-5). -/
def invStd (var : FVec F S64 .f32) : FVec F S64 .f32 :=
  Host.rsqrt (addf var (broadcastInDim S64 ![] bcast_S_S64 (constant S_ .f32 0x3727C5AC#32)))

end Cert.Stages

end
-- ==== Proof.KernelKeep.lean ====
/-
  What the host stretches before the region leave alone.

  Each stretch writes only its own buffers: the arguments are as launched after every stretch, the query points'
  rows are still there after the second gather, and the centred coordinates after the third.
-/
import proofs.«154620_j31817117728962_1_alg».proof.Proof.Gen.KernelIdeal.Frame
import proofs.«154620_j31817117728962_1_alg».proof.Proof.Stages
import Idealize.ShloMosaic.Lib.StableHlo.Run
import Idealize.ShloMosaic.Lib.Pipeline.Frame

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The nine argument buffers. -/
abbrev args : List (Ref sig .tc) :=
  [main_arg0, main_arg1, main_arg2, main_arg3, main_arg4, main_arg5, main_arg6, main_arg7, main_arg8]

/-- A buffer no operation of a stretch writes keeps its contents: each operation's written set is its one result
    buffer, and that buffer is not the one asked about. -/
local macro "unwritten" l:ident : tactic => `(tactic| (
  refine after_of_forall_not_mem _ _ (List.forall_iff_forall_mem.mp ?_)
  simp only [$l:ident, TRef.nullary, TRef.unary, TRef.binary, TRef.ternary, List.Forall, nullary_writes, unary_writes,
    binary_writes, ternary_writes, reshape_writes, Finset.mem_singleton]
  repeat' apply And.intro
  all_goals exact devRef_ne_of_ne (by decide)))

set_option maxHeartbeats 1600000 in
theorem keep0 (W : Valuation τ sig (Elt F)) (r : Ref sig .tc) (hr : r ∈ args) :
    after hostOps0 W (Proc.devRef .tc r) = W (Proc.devRef .tc r) := by
  simp only [args, List.mem_cons, List.not_mem_nil, or_false] at hr
  rcases hr with rfl | rfl | rfl | rfl | rfl | rfl | rfl | rfl | rfl <;> unwritten hostOps0

set_option maxHeartbeats 1600000 in
theorem keep1 (W : Valuation τ sig (Elt F)) (r : Ref sig .tc) (hr : r ∈ main_v0 :: args) :
    after hostOps0_1 W (Proc.devRef .tc r) = W (Proc.devRef .tc r) := by
  simp only [args, List.mem_cons, List.not_mem_nil, or_false] at hr
  rcases hr with rfl | rfl | rfl | rfl | rfl | rfl | rfl | rfl | rfl | rfl <;> unwritten hostOps0_1

theorem keep2 (W : Valuation τ sig (Elt F)) (r : Ref sig .tc) (hr : r ∈ args) :
    after hostOps0_2 W (Proc.devRef .tc r) = W (Proc.devRef .tc r) := by
  simp only [args, List.mem_cons, List.not_mem_nil, or_false] at hr
  rcases hr with rfl | rfl | rfl | rfl | rfl | rfl | rfl | rfl | rfl <;> unwritten hostOps0_2

set_option maxHeartbeats 1600000 in
theorem keep3 (W : Valuation τ sig (Elt F)) (r : Ref sig .tc) (hr : r ∈ main_v4 :: args) :
    after hostOps0_3 W (Proc.devRef .tc r) = W (Proc.devRef .tc r) := by
  simp only [args, List.mem_cons, List.not_mem_nil, or_false] at hr
  rcases hr with rfl | rfl | rfl | rfl | rfl | rfl | rfl | rfl | rfl | rfl <;> unwritten hostOps0_3

end Cert.KernelIdeal.Entry

end
-- ==== Proof.KernelStretch.lean ====
/-
  What each host stretch before the region produces, from whatever valuation it starts from.

  The three `jnp.take` stretches leave the shared gather stages of the two arguments they read; the three operations
  between the second and the third leave the neighbours' coordinates minus the query point's; the last stretch
  concatenates the two pieces and forms the scale row gamma · inv and the shift row beta − (mean · gamma) · inv.
  Each gather stretch is first restated over its buffers directly — the same operations in the same order, the typed
  references' transports being the identity at these buffers — and then read back.
-/
import proofs.«154620_j31817117728962_1_alg».proof.Proof.Gen.KernelIdeal.Frame
import proofs.«154620_j31817117728962_1_alg».proof.Proof.Stages
import Idealize.ShloMosaic.Lib.StableHlo.Run
import Idealize.ShloMosaic.Lib.Pipeline.Frame
import Idealize.ShloMosaic.Lib.Pipeline.Regions

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The query points' coordinates, `take(point, sample_idx)`: 23 operations into the first call's buffers, ending at `main_v0`. -/
abbrev opsQ : List (HloOp τ sig (Elt F)) :=
  [ nullary main_call0_c (constantI S_ 32 0#32),
    unary main_call0_c main_call0_v0 (broadcastInDim S131072 ![] bcast_S_S131072),
    binary main_arg3 main_call0_v0 main_call0_v1 (cmpi .slt),
    nullary main_call0_c_0 (constantI S_ 32 524288#32),
    unary main_call0_c_0 main_call0_v2 (broadcastInDim S131072 ![] bcast_S_S131072),
    binary main_arg3 main_call0_v2 main_call0_v3 addi,
    ternary main_call0_v1 main_call0_v3 main_arg3 main_call0_v4 select,
    unary main_call0_v4 main_call0_v5 (broadcastInDim S131072x1 ![0] bcast_S131072_S131072x1_0),
    nullary main_call0_c_1 (constantI S1 32 524287#32),
    nullary main_call0_c_2 (constantI S_ 32 0#32),
    unary main_call0_c_2 main_call0_v6 (broadcastInDim S131072x1 ![] bcast_S_S131072x1),
    binary main_call0_v5 main_call0_v6 main_call0_v7 (cmpi .sge),
    unary main_call0_c_1 main_call0_v8 (broadcastInDim S1x1 ![1] bcast_S1_S1x1_1),
    unary main_call0_v8 main_call0_v9 (broadcastInDim S131072x1 ![0, 1] bcast_S1x1_S131072x1_0_1),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S131072x1_S131072_d1 h_S_),
    binary main_arg0 main_call0_v5 main_call0_v13 (fun x i => Host.gather gather_S524288x3_S131072x1_S131072x3_1_0_n_n_0_1_13 x i),
    unary main_call0_v12 main_call0_v14 (broadcastInDim S131072x3 ![0] bcast_S131072_S131072x3_0),
    nullary main_call0_cst (constant S_ .f32 0x7FC00000#32),
    unary main_call0_cst main_call0_v15 (broadcastInDim S131072x3 ![] bcast_S_S131072x3),
    ternary main_call0_v14 main_call0_v13 main_call0_v15 main_v0 select ]

/-- The neighbours' coordinates, `take(point, idx)`: 23 operations into the second call's buffers, ending at `main_v1`. -/
abbrev opsN : List (HloOp τ sig (Elt F)) :=
  [ nullary main_call1_c (constantI S_ 32 0#32),
    unary main_call1_c main_call1_v0 (broadcastInDim S131072x16 ![] bcast_S_S131072x16),
    binary main_arg2 main_call1_v0 main_call1_v1 (cmpi .slt),
    nullary main_call1_c_0 (constantI S_ 32 524288#32),
    unary main_call1_c_0 main_call1_v2 (broadcastInDim S131072x16 ![] bcast_S_S131072x16),
    binary main_arg2 main_call1_v2 main_call1_v3 addi,
    ternary main_call1_v1 main_call1_v3 main_arg2 main_call1_v4 select,
    unary main_call1_v4 main_call1_v5 (broadcastInDim S131072x16x1 ![0, 1] bcast_S131072x16_S131072x16x1_0_1),
    nullary main_call1_c_1 (constantI S1 32 524287#32),
    nullary main_call1_c_2 (constantI S_ 32 0#32),
    unary main_call1_c_2 main_call1_v6 (broadcastInDim S131072x16x1 ![] bcast_S_S131072x16x1),
    binary main_call1_v5 main_call1_v6 main_call1_v7 (cmpi .sge),
    unary main_call1_c_1 main_call1_v8 (broadcastInDim S1x1x1 ![2] bcast_S1_S1x1x1_2),
    unary main_call1_v8 main_call1_v9 (broadcastInDim S131072x16x1 ![0, 1, 2] bcast_S1x1x1_S131072x16x1_0_1_2),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S131072x16x1_S131072x16_d2 h_S_),
    binary main_arg0 main_call1_v5 main_call1_v13 (fun x i => Host.gather gather_S524288x3_S131072x16x1_S131072x16x3_2_0_n_n_0_2_13 x i),
    unary main_call1_v12 main_call1_v14 (broadcastInDim S131072x16x3 ![0, 1] bcast_S131072x16_S131072x16x3_0_1),
    nullary main_call1_cst (constant S_ .f32 0x7FC00000#32),
    unary main_call1_cst main_call1_v15 (broadcastInDim S131072x16x3 ![] bcast_S_S131072x16x3),
    ternary main_call1_v14 main_call1_v13 main_call1_v15 main_v1 select ]

/-- The neighbours' features, `take(feat, idx)`: 23 operations into the third call's buffers, ending at `main_v5`. -/
abbrev opsF : List (HloOp τ sig (Elt F)) :=
  [ nullary main_call2_c (constantI S_ 32 0#32),
    unary main_call2_c main_call2_v0 (broadcastInDim S131072x16 ![] bcast_S_S131072x16),
    binary main_arg2 main_call2_v0 main_call2_v1 (cmpi .slt),
    nullary main_call2_c_0 (constantI S_ 32 524288#32),
    unary main_call2_c_0 main_call2_v2 (broadcastInDim S131072x16 ![] bcast_S_S131072x16),
    binary main_arg2 main_call2_v2 main_call2_v3 addi,
    ternary main_call2_v1 main_call2_v3 main_arg2 main_call2_v4 select,
    unary main_call2_v4 main_call2_v5 (broadcastInDim S131072x16x1 ![0, 1] bcast_S131072x16_S131072x16x1_0_1),
    nullary main_call2_c_1 (constantI S1 32 524287#32),
    nullary main_call2_c_2 (constantI S_ 32 0#32),
    unary main_call2_c_2 main_call2_v6 (broadcastInDim S131072x16x1 ![] bcast_S_S131072x16x1),
    binary main_call2_v5 main_call2_v6 main_call2_v7 (cmpi .sge),
    unary main_call2_c_1 main_call2_v8 (broadcastInDim S1x1x1 ![2] bcast_S1_S1x1x1_2),
    unary main_call2_v8 main_call2_v9 (broadcastInDim S131072x16x1 ![0, 1, 2] bcast_S1x1x1_S131072x16x1_0_1_2),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S131072x16x1_S131072x16_d2 h_S_),
    binary main_arg1 main_call2_v5 main_call2_v13 (fun x i => Host.gather gather_S524288x32_S131072x16x1_S131072x16x32_2_0_n_n_0_2_132 x i),
    unary main_call2_v12 main_call2_v14 (broadcastInDim S131072x16x32 ![0, 1] bcast_S131072x16_S131072x16x32_0_1),
    nullary main_call2_cst (constant S_ .f32 0x7FC00000#32),
    unary main_call2_cst main_call2_v15 (broadcastInDim S131072x16x32 ![] bcast_S_S131072x16x32),
    ternary main_call2_v14 main_call2_v13 main_call2_v15 main_v5 select ]

/-- The first stretch is that list: the same operations on the same buffers. -/
theorem hostOps0_eq : (hostOps0 : List (HloOp τ sig (Elt F))) = opsQ := by chain_rfl

/-- The second stretch likewise. -/
theorem hostOps0_1_eq : (hostOps0_1 : List (HloOp τ sig (Elt F))) = opsN := by chain_rfl

/-- The fourth stretch likewise. -/
theorem hostOps0_3_eq : (hostOps0_3 : List (HloOp τ sig (Elt F))) = opsF := by chain_rfl

attribute [local irreducible] Host.reduce Host.gather in
set_option maxRecDepth 8192 in
set_option maxHeartbeats 1600000 in
/-- The first stretch: the query points' rows of the point table. -/
theorem val0 (W : Valuation τ sig (Elt F)) :
    after hostOps0 W (main_v0 : DevRef τ sig) = Cert.Stages.takeQ (W (main_arg0 : DevRef τ sig)) (W (main_arg3 : DevRef τ sig)) := by
  rw [hostOps0_eq]
  after_results_simp
  rfl

attribute [local irreducible] Host.reduce Host.gather in
set_option maxRecDepth 8192 in
set_option maxHeartbeats 1600000 in
/-- The second stretch: the neighbours' rows of the point table. -/
theorem val1 (W : Valuation τ sig (Elt F)) :
    after hostOps0_1 W (main_v1 : DevRef τ sig) = Cert.Stages.takeN3 (W (main_arg0 : DevRef τ sig)) (W (main_arg2 : DevRef τ sig)) := by
  rw [hostOps0_1_eq]
  after_results_simp
  rfl

/-- Between them: the neighbours' coordinates minus the query point's. -/
theorem val2 (W : Valuation τ sig (Elt F)) :
    after hostOps0_2 W (main_v4 : DevRef τ sig)
      = subf (W (main_v1 : DevRef τ sig))
          (broadcastInDim S131072x16x3 ![0, 1, 2] bcast_S131072x1x3_S131072x16x3_0_1_2
            (broadcastInDim S131072x1x3 ![0, 2] bcast_S131072x3_S131072x1x3_0_2 (W (main_v0 : DevRef τ sig)))) := by
  after_results_simp

attribute [local irreducible] Host.reduce Host.gather in
set_option maxRecDepth 8192 in
set_option maxHeartbeats 1600000 in
/-- The third gather: the neighbours' rows of the feature table. -/
theorem val3 (W : Valuation τ sig (Elt F)) :
    after hostOps0_3 W (main_v5 : DevRef τ sig) = Cert.Stages.takeN32 (W (main_arg1 : DevRef τ sig)) (W (main_arg2 : DevRef τ sig)) := by
  rw [hostOps0_3_eq]
  after_results_simp
  rfl

attribute [local irreducible] concatenate in
/-- The last stretch's grouped operand, from whatever the earlier ones left in the two pieces' buffers. -/
theorem val4_grouped (W : Valuation τ sig (Elt F)) :
    after hostOps0_4 W (main_v6 : DevRef τ sig)
      = concatenate S131072x16x35 2 [⟨S131072x16x3, W (main_v4 : DevRef τ sig)⟩, ⟨S131072x16x32, W (main_v5 : DevRef τ sig)⟩]
          concatenates_S131072x16x3_S131072x16x32_S131072x16x35_d2 := by
  after_results_simp

/-- The last stretch's scale row. -/
theorem val4_scale (W : Valuation τ sig (Elt F)) :
    (after hostOps0_4 W (main_v11 : DevRef τ sig) : (⟨S1x64, .f32⟩ : BufTy).Contents (Elt F))
      = shapeCast S1x64 (mulf (W (main_arg5 : DevRef τ sig)) (Cert.Stages.invStd (W (main_arg8 : DevRef τ sig)))) shapeCasts_S64_S1x64 := by
  after_results_simp
  rfl

/-- The last stretch's shift row. -/
theorem val4_shift (W : Valuation τ sig (Elt F)) :
    (after hostOps0_4 W (main_v15 : DevRef τ sig) : (⟨S1x64, .f32⟩ : BufTy).Contents (Elt F))
      = shapeCast S1x64
          (subf (W (main_arg6 : DevRef τ sig))
            (mulf (mulf (W (main_arg7 : DevRef τ sig)) (W (main_arg5 : DevRef τ sig))) (Cert.Stages.invStd (W (main_arg8 : DevRef τ sig)))))
          shapeCasts_S64_S1x64 := by
  after_results_simp
  rfl

end Cert.KernelIdeal.Entry

end
-- ==== Proof.KernelEntry.lean ====
/-
  What the region finds in the arrays its windows stage: the host stretches before it, composed.

  The region-entry contents are the five stretches one after the other over the launch contents; reading them
  back stretch by stretch gives the grouped operand as the shared stage of the four arguments it is gathered
  from, and the scale and shift rows as gamma · inv and beta − (mean · gamma) · inv reshaped to [1, 64].
-/
import proofs.«154620_j31817117728962_1_alg».proof.Proof.Gen.KernelIdeal.Frame
import proofs.«154620_j31817117728962_1_alg».proof.Proof.Stages
import proofs.«154620_j31817117728962_1_alg».proof.Proof.KernelKeep
import proofs.«154620_j31817117728962_1_alg».proof.Proof.KernelStretch
import Idealize.ShloMosaic.Lib.StableHlo.Run
import Idealize.ShloMosaic.Lib.Pipeline.Frame

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- The region-entry contents: the five stretches one after the other over the launch contents. -/
theorem V_eq (c : Dev nD) (b : Ref sig .tc) :
    V m c b = after hostOps0_4 (after hostOps0_3 (after hostOps0_2 (after hostOps0_1 (after hostOps0 (fun b => m (c, b)))))) (Proc.devRef .tc b) := by
  dsimp only [Gen.V]
  simp only [List.flatten_cons, List.flatten_nil, List.append_nil, after_append]

/-- An argument is still as launched when the last stretch starts. -/
theorem arg_through (V₀ : Valuation τ sig (Elt F)) (r : Ref sig .tc) (hr : r ∈ args) :
    after hostOps0_3 (after hostOps0_2 (after hostOps0_1 (after hostOps0 V₀))) (Proc.devRef .tc r) = V₀ (Proc.devRef .tc r) := by
  rw [keep3 _ r (List.mem_cons_of_mem _ hr), keep2 _ r hr, keep1 _ r (List.mem_cons_of_mem _ hr), keep0 _ r hr]

/-- The scale row: gamma · inv, as a [1, 64] row. -/
theorem scale_eq (c : Dev nD) :
    (V m c main_v11 : (⟨S1x64, .f32⟩ : BufTy).Contents (Elt F))
      = shapeCast S1x64 (mulf (m ((c : Thread nD τ).loc main_arg5)) (Cert.Stages.invStd (m ((c : Thread nD τ).loc main_arg8))))
          shapeCasts_S64_S1x64 := by
  rw [V_eq, val4_scale, arg_through _ main_arg5 (by decide), arg_through _ main_arg8 (by decide)]

/-- The shift row: beta − (mean · gamma) · inv, as a [1, 64] row. -/
theorem shift_eq (c : Dev nD) :
    (V m c main_v15 : (⟨S1x64, .f32⟩ : BufTy).Contents (Elt F))
      = shapeCast S1x64
          (subf (m ((c : Thread nD τ).loc main_arg6))
            (mulf (mulf (m ((c : Thread nD τ).loc main_arg7)) (m ((c : Thread nD τ).loc main_arg5)))
              (Cert.Stages.invStd (m ((c : Thread nD τ).loc main_arg8)))))
          shapeCasts_S64_S1x64 := by
  rw [V_eq, val4_shift, arg_through _ main_arg5 (by decide), arg_through _ main_arg6 (by decide),
    arg_through _ main_arg7 (by decide), arg_through _ main_arg8 (by decide)]

attribute [local irreducible] Host.reduce Host.gather concatenate in
/-- The grouped operand: the shared stage of the four arguments it is gathered from. -/
theorem grouped_eq (c : Dev nD) :
    (V m c main_v6 : (⟨S131072x16x35, .f32⟩ : BufTy).Contents (Elt F))
      = Cert.Stages.grouped (m ((c : Thread nD τ).loc main_arg0)) (m ((c : Thread nD τ).loc main_arg1))
          (m ((c : Thread nD τ).loc main_arg2)) (m ((c : Thread nD τ).loc main_arg3)) := by
  rw [V_eq, val4_grouped, val3, keep2 _ main_arg1 (by decide), keep1 _ main_arg1 (by decide), keep0 _ main_arg1 (by decide),
    keep2 _ main_arg2 (by decide), keep1 _ main_arg2 (by decide), keep0 _ main_arg2 (by decide)]
  rw [keep3 _ main_v4 (by decide), val2, val1, keep1 _ main_v0 (by decide), val0, keep0 _ main_arg0 (by decide),
    keep0 _ main_arg2 (by decide)]
  rfl

end Cert.KernelIdeal.Entry

end
-- ==== Proof.RefOps.lean ====
/-
  The reference program as one straight line of host operations.

  @main calls `jnp.take` three times (the query points' coordinates, the neighbours' coordinates, the neighbours'
  features), and each call computes in its own buffers: the index wrapped once from the end, the wrapped index as
  a column of start indices, the range test 0 ≤ i ≤ 524287 reduced over the column, the gather, and the fill of the
  rows whose index is out of range. Between and after the calls: the query point broadcast over its sixteen
  neighbours and subtracted, the concatenation of coordinates and features, the contraction of the 35 channels with
  W, the inverse standard deviation, (h − mean) · (gamma · inv) + beta, the maximum with zero and the maximum over
  the neighbour axis from −∞. Listing them in order gives the run: every buffer ends at the operations' fold over
  the launch contents.
-/
import proofs.«154620_j31817117728962_1_alg».proof.Proof.Gen.ReferenceIdeal
import Idealize.ShloMosaic.Lib.StableHlo.Run
import Idealize.ShloMosaic.Lib.Pipeline.Regions

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The query points' coordinates, `take(point, sample_idx)`: 23 operations into the first call's buffers, ending at `main_v0`. -/
abbrev opsQ : List (HloOp τ sig (Elt F)) :=
  [ nullary main_call0_c (constantI S_ 32 0#32),
    unary main_call0_c main_call0_v0 (broadcastInDim S131072 ![] bcast_S_S131072),
    binary main_arg3 main_call0_v0 main_call0_v1 (cmpi .slt),
    nullary main_call0_c_0 (constantI S_ 32 524288#32),
    unary main_call0_c_0 main_call0_v2 (broadcastInDim S131072 ![] bcast_S_S131072),
    binary main_arg3 main_call0_v2 main_call0_v3 addi,
    ternary main_call0_v1 main_call0_v3 main_arg3 main_call0_v4 select,
    unary main_call0_v4 main_call0_v5 (broadcastInDim S131072x1 ![0] bcast_S131072_S131072x1_0),
    nullary main_call0_c_1 (constantI S1 32 524287#32),
    nullary main_call0_c_2 (constantI S_ 32 0#32),
    unary main_call0_c_2 main_call0_v6 (broadcastInDim S131072x1 ![] bcast_S_S131072x1),
    binary main_call0_v5 main_call0_v6 main_call0_v7 (cmpi .sge),
    unary main_call0_c_1 main_call0_v8 (broadcastInDim S1x1 ![1] bcast_S1_S1x1_1),
    unary main_call0_v8 main_call0_v9 (broadcastInDim S131072x1 ![0, 1] bcast_S1x1_S131072x1_0_1),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S131072x1_S131072_d1 h_S_),
    binary main_arg0 main_call0_v5 main_call0_v13 (fun x i => Host.gather gather_S524288x3_S131072x1_S131072x3_1_0_n_n_0_1_13 x i),
    unary main_call0_v12 main_call0_v14 (broadcastInDim S131072x3 ![0] bcast_S131072_S131072x3_0),
    nullary main_call0_cst (constant S_ .f32 0x7FC00000#32),
    unary main_call0_cst main_call0_v15 (broadcastInDim S131072x3 ![] bcast_S_S131072x3),
    ternary main_call0_v14 main_call0_v13 main_call0_v15 main_v0 select ]

/-- The neighbours' coordinates, `take(point, idx)`: 23 operations into the second call's buffers, ending at `main_v1`. -/
abbrev opsN : List (HloOp τ sig (Elt F)) :=
  [ nullary main_call1_c (constantI S_ 32 0#32),
    unary main_call1_c main_call1_v0 (broadcastInDim S131072x16 ![] bcast_S_S131072x16),
    binary main_arg2 main_call1_v0 main_call1_v1 (cmpi .slt),
    nullary main_call1_c_0 (constantI S_ 32 524288#32),
    unary main_call1_c_0 main_call1_v2 (broadcastInDim S131072x16 ![] bcast_S_S131072x16),
    binary main_arg2 main_call1_v2 main_call1_v3 addi,
    ternary main_call1_v1 main_call1_v3 main_arg2 main_call1_v4 select,
    unary main_call1_v4 main_call1_v5 (broadcastInDim S131072x16x1 ![0, 1] bcast_S131072x16_S131072x16x1_0_1),
    nullary main_call1_c_1 (constantI S1 32 524287#32),
    nullary main_call1_c_2 (constantI S_ 32 0#32),
    unary main_call1_c_2 main_call1_v6 (broadcastInDim S131072x16x1 ![] bcast_S_S131072x16x1),
    binary main_call1_v5 main_call1_v6 main_call1_v7 (cmpi .sge),
    unary main_call1_c_1 main_call1_v8 (broadcastInDim S1x1x1 ![2] bcast_S1_S1x1x1_2),
    unary main_call1_v8 main_call1_v9 (broadcastInDim S131072x16x1 ![0, 1, 2] bcast_S1x1x1_S131072x16x1_0_1_2),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S131072x16x1_S131072x16_d2 h_S_),
    binary main_arg0 main_call1_v5 main_call1_v13 (fun x i => Host.gather gather_S524288x3_S131072x16x1_S131072x16x3_2_0_n_n_0_2_13 x i),
    unary main_call1_v12 main_call1_v14 (broadcastInDim S131072x16x3 ![0, 1] bcast_S131072x16_S131072x16x3_0_1),
    nullary main_call1_cst (constant S_ .f32 0x7FC00000#32),
    unary main_call1_cst main_call1_v15 (broadcastInDim S131072x16x3 ![] bcast_S_S131072x16x3),
    ternary main_call1_v14 main_call1_v13 main_call1_v15 main_v1 select ]

/-- The neighbours' coordinates relative to the query point: the query row broadcast over its sixteen neighbours and subtracted, `main_v4`. -/
abbrev opsC : List (HloOp τ sig (Elt F)) :=
  [ unary main_v0 main_v2 (broadcastInDim S131072x1x3 ![0, 2] bcast_S131072x3_S131072x1x3_0_2 : (⟨S131072x3, .f32⟩ : BufTy).Contents (Elt F) → (⟨S131072x1x3, .f32⟩ : BufTy).Contents (Elt F)),
    unary main_v2 main_v3 (broadcastInDim S131072x16x3 ![0, 1, 2] bcast_S131072x1x3_S131072x16x3_0_1_2 : (⟨S131072x1x3, .f32⟩ : BufTy).Contents (Elt F) → (⟨S131072x16x3, .f32⟩ : BufTy).Contents (Elt F)),
    binary main_v1 main_v3 main_v4 (subf : (⟨S131072x16x3, .f32⟩ : BufTy).Contents (Elt F) → (⟨S131072x16x3, .f32⟩ : BufTy).Contents (Elt F) → (⟨S131072x16x3, .f32⟩ : BufTy).Contents (Elt F)) ]

/-- The neighbours' features, `take(feat, idx)`: 23 operations into the third call's buffers, ending at `main_v5`. -/
abbrev opsF : List (HloOp τ sig (Elt F)) :=
  [ nullary main_call2_c (constantI S_ 32 0#32),
    unary main_call2_c main_call2_v0 (broadcastInDim S131072x16 ![] bcast_S_S131072x16),
    binary main_arg2 main_call2_v0 main_call2_v1 (cmpi .slt),
    nullary main_call2_c_0 (constantI S_ 32 524288#32),
    unary main_call2_c_0 main_call2_v2 (broadcastInDim S131072x16 ![] bcast_S_S131072x16),
    binary main_arg2 main_call2_v2 main_call2_v3 addi,
    ternary main_call2_v1 main_call2_v3 main_arg2 main_call2_v4 select,
    unary main_call2_v4 main_call2_v5 (broadcastInDim S131072x16x1 ![0, 1] bcast_S131072x16_S131072x16x1_0_1),
    nullary main_call2_c_1 (constantI S1 32 524287#32),
    nullary main_call2_c_2 (constantI S_ 32 0#32),
    unary main_call2_c_2 main_call2_v6 (broadcastInDim S131072x16x1 ![] bcast_S_S131072x16x1),
    binary main_call2_v5 main_call2_v6 main_call2_v7 (cmpi .sge),
    unary main_call2_c_1 main_call2_v8 (broadcastInDim S1x1x1 ![2] bcast_S1_S1x1x1_2),
    unary main_call2_v8 main_call2_v9 (broadcastInDim S131072x16x1 ![0, 1, 2] bcast_S1x1x1_S131072x16x1_0_1_2),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S131072x16x1_S131072x16_d2 h_S_),
    binary main_arg1 main_call2_v5 main_call2_v13 (fun x i => Host.gather gather_S524288x32_S131072x16x1_S131072x16x32_2_0_n_n_0_2_132 x i),
    unary main_call2_v12 main_call2_v14 (broadcastInDim S131072x16x32 ![0, 1] bcast_S131072x16_S131072x16x32_0_1),
    nullary main_call2_cst (constant S_ .f32 0x7FC00000#32),
    unary main_call2_cst main_call2_v15 (broadcastInDim S131072x16x32 ![] bcast_S_S131072x16x32),
    ternary main_call2_v14 main_call2_v13 main_call2_v15 main_v5 select ]

/-- The rest: the grouped operand, its contraction with W, the normalisation with the running statistics, the maximum with zero and the maximum over the sixteen neighbours, `main_v22`. -/
abbrev opsT : List (HloOp τ sig (Elt F)) :=
  [ binary main_v4 main_v5 main_v6 ((fun a b => concatenate S131072x16x35 2 [⟨S131072x16x3, a⟩, ⟨S131072x16x32, b⟩] concatenates_S131072x16x3_S131072x16x32_S131072x16x35_d2) : (⟨S131072x16x3, .f32⟩ : BufTy).Contents (Elt F) → (⟨S131072x16x32, .f32⟩ : BufTy).Contents (Elt F) → (⟨S131072x16x35, .f32⟩ : BufTy).Contents (Elt F)),
    binary main_v6 main_arg4 main_v7 ((fun l r => Host.dotGeneral dot_S131072x16x35_S35x64_S131072x16x64_2_0_01_1_n_n none l r) : (⟨S131072x16x35, .f32⟩ : BufTy).Contents (Elt F) → (⟨S35x64, .f32⟩ : BufTy).Contents (Elt F) → (⟨S131072x16x64, .f32⟩ : BufTy).Contents (Elt F)),
    nullary main_cst (constant S_ .f32 0x3727C5AC#32),
    unary main_cst main_v8 (broadcastInDim S64 ![] bcast_S_S64 : (⟨S_, .f32⟩ : BufTy).Contents (Elt F) → (⟨S64, .f32⟩ : BufTy).Contents (Elt F)),
    binary main_arg8 main_v8 main_v9 (addf : (⟨S64, .f32⟩ : BufTy).Contents (Elt F) → (⟨S64, .f32⟩ : BufTy).Contents (Elt F) → (⟨S64, .f32⟩ : BufTy).Contents (Elt F)),
    unary main_v9 main_v10 (Host.rsqrt : (⟨S64, .f32⟩ : BufTy).Contents (Elt F) → (⟨S64, .f32⟩ : BufTy).Contents (Elt F)),
    unary main_arg7 main_v11 (broadcastInDim S1x1x64 ![2] bcast_S64_S1x1x64_2 : (⟨S64, .f32⟩ : BufTy).Contents (Elt F) → (⟨S1x1x64, .f32⟩ : BufTy).Contents (Elt F)),
    unary main_v11 main_v12 (broadcastInDim S131072x16x64 ![0, 1, 2] bcast_S1x1x64_S131072x16x64_0_1_2 : (⟨S1x1x64, .f32⟩ : BufTy).Contents (Elt F) → (⟨S131072x16x64, .f32⟩ : BufTy).Contents (Elt F)),
    binary main_v7 main_v12 main_v13 (subf : (⟨S131072x16x64, .f32⟩ : BufTy).Contents (Elt F) → (⟨S131072x16x64, .f32⟩ : BufTy).Contents (Elt F) → (⟨S131072x16x64, .f32⟩ : BufTy).Contents (Elt F)),
    binary main_arg5 main_v10 main_v14 (mulf : (⟨S64, .f32⟩ : BufTy).Contents (Elt F) → (⟨S64, .f32⟩ : BufTy).Contents (Elt F) → (⟨S64, .f32⟩ : BufTy).Contents (Elt F)),
    unary main_v14 main_v15 (broadcastInDim S1x1x64 ![2] bcast_S64_S1x1x64_2 : (⟨S64, .f32⟩ : BufTy).Contents (Elt F) → (⟨S1x1x64, .f32⟩ : BufTy).Contents (Elt F)),
    unary main_v15 main_v16 (broadcastInDim S131072x16x64 ![0, 1, 2] bcast_S1x1x64_S131072x16x64_0_1_2 : (⟨S1x1x64, .f32⟩ : BufTy).Contents (Elt F) → (⟨S131072x16x64, .f32⟩ : BufTy).Contents (Elt F)),
    binary main_v13 main_v16 main_v17 (mulf : (⟨S131072x16x64, .f32⟩ : BufTy).Contents (Elt F) → (⟨S131072x16x64, .f32⟩ : BufTy).Contents (Elt F) → (⟨S131072x16x64, .f32⟩ : BufTy).Contents (Elt F)),
    unary main_arg6 main_v18 (broadcastInDim S1x1x64 ![2] bcast_S64_S1x1x64_2 : (⟨S64, .f32⟩ : BufTy).Contents (Elt F) → (⟨S1x1x64, .f32⟩ : BufTy).Contents (Elt F)),
    unary main_v18 main_v19 (broadcastInDim S131072x16x64 ![0, 1, 2] bcast_S1x1x64_S131072x16x64_0_1_2 : (⟨S1x1x64, .f32⟩ : BufTy).Contents (Elt F) → (⟨S131072x16x64, .f32⟩ : BufTy).Contents (Elt F)),
    binary main_v17 main_v19 main_v20 (addf : (⟨S131072x16x64, .f32⟩ : BufTy).Contents (Elt F) → (⟨S131072x16x64, .f32⟩ : BufTy).Contents (Elt F) → (⟨S131072x16x64, .f32⟩ : BufTy).Contents (Elt F)),
    nullary main_call3_cst (constant S_ .f32 0x00000000#32),
    unary main_call3_cst main_call3_v0 (broadcastInDim S131072x16x64 ![] bcast_S_S131072x16x64),
    binary main_v20 main_call3_v0 main_v21 maximumf,
    nullary main_cst_0 (constant S_ .f32 0xFF800000#32),
    binary main_v21 main_cst_0 main_v22 ((fun x v => Host.reduce FloatOps.maximumf x v reducesTo_S131072x16x64_S131072x64_d1 h_S_) : (⟨S131072x16x64, .f32⟩ : BufTy).Contents (Elt F) → (⟨S_, .f32⟩ : BufTy).Contents (Elt F) → (⟨S131072x64, .f32⟩ : BufTy).Contents (Elt F)) ]

/-- @main's 93 operations in program order, the calls' bodies inline over each call's buffers. -/
abbrev ops : List (HloOp τ sig (Elt F)) := opsQ ++ (opsN ++ (opsC ++ (opsF ++ opsT)))

/-- @main is that straight line: each call's body unfolded at the call, its buffers the call's record's; the two
    sides are one sequence of operations once sequencing is re-associated, which is a computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsQ_sub : (opsQ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsN_sub : (opsN : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsC_sub : (opsC : List (HloOp τ sig (Elt F))).Forall fun op => op.bufs ⊆ tcRefs τ sig :=
  ⟨unary_bufs_sub .., unary_bufs_sub .., binary_bufs_sub ..⟩
theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsT_sub : (opsT : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

/-- Every operation touches TensorCore buffers only. -/
theorem ops_sub : (ops : List (HloOp τ sig (Elt F))).Forall fun op => op.bufs ⊆ tcRefs τ sig :=
  List.forall_append.mpr ⟨opsQ_sub, List.forall_append.mpr ⟨opsN_sub, List.forall_append.mpr ⟨opsC_sub,
    List.forall_append.mpr ⟨opsF_sub, opsT_sub⟩⟩⟩⟩

/-- From any memory with zero counters every weakly fair execution of @main terminates, and every TensorCore
    buffer ends at the fold of the operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefRun.lean ====
/-
  The reference's run, read: its result array as one function of the nine argument arrays.

  The straight line is read one stretch at a time. Each `jnp.take` stretch leaves its result at the shared gather
  stage of the two arguments it reads; the three operations between them leave the neighbours' coordinates minus
  the query point's; the last stretch concatenates coordinates and features, contracts with W, normalises, takes
  the maximum with zero and the maximum over the neighbours. A stretch writes only its own buffers, so what an
  earlier stretch produced, and every argument, is still there when a later one reads it.
-/
import proofs.«154620_j31817117728962_1_alg».proof.Proof.RefOps
import proofs.«154620_j31817117728962_1_alg».proof.Proof.Stages
import Idealize.ShloMosaic.Lib.Pipeline.Frame

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The last stretch's result from the two pieces of the grouped operand and the five per-layer arguments. -/
def outT (xyz : FVec F S131072x16x3 .f32) (fe : FVec F S131072x16x32 .f32) (W : FVec F S35x64 .f32)
    (gamma beta mean var : FVec F S64 .f32) : FVec F S131072x64 .f32 :=
  Host.reduce FloatOps.maximumf
    (maximumf
      (addf
        (mulf
          (subf (Host.dotGeneral dot_S131072x16x35_S35x64_S131072x16x64_2_0_01_1_n_n none
              (concatenate S131072x16x35 2 [⟨S131072x16x3, xyz⟩, ⟨S131072x16x32, fe⟩] concatenates_S131072x16x3_S131072x16x32_S131072x16x35_d2) W)
            (broadcastInDim S131072x16x64 ![0, 1, 2] bcast_S1x1x64_S131072x16x64_0_1_2 (broadcastInDim S1x1x64 ![2] bcast_S64_S1x1x64_2 mean)))
          (broadcastInDim S131072x16x64 ![0, 1, 2] bcast_S1x1x64_S131072x16x64_0_1_2
            (broadcastInDim S1x1x64 ![2] bcast_S64_S1x1x64_2
              (mulf gamma (Host.rsqrt (addf var (broadcastInDim S64 ![] bcast_S_S64 (constant S_ .f32 0x3727C5AC#32))))))))
        (broadcastInDim S131072x16x64 ![0, 1, 2] bcast_S1x1x64_S131072x16x64_0_1_2 (broadcastInDim S1x1x64 ![2] bcast_S64_S1x1x64_2 beta)))
      (broadcastInDim S131072x16x64 ![] bcast_S_S131072x16x64 (constant S_ .f32 0x00000000#32)))
    (constant S_ .f32 0xFF800000#32) reducesTo_S131072x16x64_S131072x64_d1 h_S_

/-- The result array of the reference as a function of its arguments, over the shared stages. -/
def out (point : FVec F S524288x3 .f32) (feat : FVec F S524288x32 .f32) (idx : IVec S131072x16 32) (sidx : IVec S131072 32)
    (W : FVec F S35x64 .f32) (gamma beta mean var : FVec F S64 .f32) : FVec F S131072x64 .f32 :=
  Host.reduce FloatOps.maximumf
    (maximumf
      (addf
        (mulf
          (subf (Host.dotGeneral dot_S131072x16x35_S35x64_S131072x16x64_2_0_01_1_n_n none (Cert.Stages.grouped point feat idx sidx) W)
            (broadcastInDim S131072x16x64 ![0, 1, 2] bcast_S1x1x64_S131072x16x64_0_1_2 (broadcastInDim S1x1x64 ![2] bcast_S64_S1x1x64_2 mean)))
          (broadcastInDim S131072x16x64 ![0, 1, 2] bcast_S1x1x64_S131072x16x64_0_1_2
            (broadcastInDim S1x1x64 ![2] bcast_S64_S1x1x64_2 (mulf gamma (Cert.Stages.invStd var)))))
        (broadcastInDim S131072x16x64 ![0, 1, 2] bcast_S1x1x64_S131072x16x64_0_1_2 (broadcastInDim S1x1x64 ![2] bcast_S64_S1x1x64_2 beta)))
      (broadcastInDim S131072x16x64 ![] bcast_S_S131072x16x64 (constant S_ .f32 0x00000000#32)))
    (constant S_ .f32 0xFF800000#32) reducesTo_S131072x16x64_S131072x64_d1 h_S_

/-- The nine argument buffers. -/
abbrev args : List (Ref sig .tc) :=
  [main_arg0, main_arg1, main_arg2, main_arg3, main_arg4, main_arg5, main_arg6, main_arg7, main_arg8]

/-- A buffer no operation of a stretch writes keeps its contents: each operation's written set is its one result
    buffer, and that buffer is not the one asked about. -/
local macro "unwritten" l:ident : tactic => `(tactic| (
  refine after_of_forall_not_mem _ _ (List.forall_iff_forall_mem.mp ?_)
  simp only [$l:ident, List.Forall, nullary_writes, unary_writes, binary_writes, ternary_writes, Finset.mem_singleton]
  repeat' apply And.intro
  all_goals exact devRef_ne_of_ne (by decide)))

set_option maxHeartbeats 1600000 in
theorem keepQ (W : Valuation τ sig (Elt F)) (r : Ref sig .tc) (hr : r ∈ args) :
    after opsQ W (Proc.devRef .tc r) = W (Proc.devRef .tc r) := by
  simp only [args, List.mem_cons, List.not_mem_nil, or_false] at hr
  rcases hr with rfl | rfl | rfl | rfl | rfl | rfl | rfl | rfl | rfl <;> unwritten opsQ

set_option maxHeartbeats 1600000 in
theorem keepN (W : Valuation τ sig (Elt F)) (r : Ref sig .tc) (hr : r ∈ main_v0 :: args) :
    after opsN W (Proc.devRef .tc r) = W (Proc.devRef .tc r) := by
  simp only [args, List.mem_cons, List.not_mem_nil, or_false] at hr
  rcases hr with rfl | rfl | rfl | rfl | rfl | rfl | rfl | rfl | rfl | rfl <;> unwritten opsN

theorem keepC (W : Valuation τ sig (Elt F)) (r : Ref sig .tc) (hr : r ∈ args) :
    after opsC W (Proc.devRef .tc r) = W (Proc.devRef .tc r) := by
  simp only [args, List.mem_cons, List.not_mem_nil, or_false] at hr
  rcases hr with rfl | rfl | rfl | rfl | rfl | rfl | rfl | rfl | rfl <;> unwritten opsC

set_option maxHeartbeats 1600000 in
theorem keepF (W : Valuation τ sig (Elt F)) (r : Ref sig .tc) (hr : r ∈ main_v4 :: args) :
    after opsF W (Proc.devRef .tc r) = W (Proc.devRef .tc r) := by
  simp only [args, List.mem_cons, List.not_mem_nil, or_false] at hr
  rcases hr with rfl | rfl | rfl | rfl | rfl | rfl | rfl | rfl | rfl | rfl <;> unwritten opsF

set_option maxHeartbeats 1600000 in
theorem keepT (W : Valuation τ sig (Elt F)) (r : Ref sig .tc) (hr : r ∈ args) :
    after opsT W (Proc.devRef .tc r) = W (Proc.devRef .tc r) := by
  simp only [args, List.mem_cons, List.not_mem_nil, or_false] at hr
  rcases hr with rfl | rfl | rfl | rfl | rfl | rfl | rfl | rfl | rfl <;> unwritten opsT

attribute [local irreducible] Host.reduce Host.gather in
set_option maxRecDepth 8192 in
set_option maxHeartbeats 1600000 in
/-- The first stretch: the query points' rows of the point table. -/
theorem valQ (W : Valuation τ sig (Elt F)) :
    after opsQ W (main_v0 : DevRef τ sig) = Cert.Stages.takeQ (W (main_arg0 : DevRef τ sig)) (W (main_arg3 : DevRef τ sig)) := by
  after_results_simp
  rfl

attribute [local irreducible] Host.reduce Host.gather in
set_option maxRecDepth 8192 in
set_option maxHeartbeats 1600000 in
/-- The second stretch: the neighbours' rows of the point table. -/
theorem valN (W : Valuation τ sig (Elt F)) :
    after opsN W (main_v1 : DevRef τ sig) = Cert.Stages.takeN3 (W (main_arg0 : DevRef τ sig)) (W (main_arg2 : DevRef τ sig)) := by
  after_results_simp
  rfl

/-- Between them: the neighbours' coordinates minus the query point's, the query row broadcast over the neighbours. -/
theorem valC (W : Valuation τ sig (Elt F)) :
    after opsC W (main_v4 : DevRef τ sig)
      = subf (W (main_v1 : DevRef τ sig))
          (broadcastInDim S131072x16x3 ![0, 1, 2] bcast_S131072x1x3_S131072x16x3_0_1_2
            (broadcastInDim S131072x1x3 ![0, 2] bcast_S131072x3_S131072x1x3_0_2 (W (main_v0 : DevRef τ sig)))) := by
  after_results_simp

attribute [local irreducible] Host.reduce Host.gather in
set_option maxRecDepth 8192 in
set_option maxHeartbeats 1600000 in
/-- The third gather: the neighbours' rows of the feature table. -/
theorem valF (W : Valuation τ sig (Elt F)) :
    after opsF W (main_v5 : DevRef τ sig) = Cert.Stages.takeN32 (W (main_arg1 : DevRef τ sig)) (W (main_arg2 : DevRef τ sig)) := by
  after_results_simp
  rfl

attribute [local irreducible] Host.reduce concatenate in
set_option maxRecDepth 8192 in
set_option maxHeartbeats 1600000 in
/-- The last stretch, from whatever the earlier ones left in the two pieces' buffers. -/
theorem valT (W : Valuation τ sig (Elt F)) :
    after opsT W (main_v22 : DevRef τ sig)
      = outT (W (main_v4 : DevRef τ sig)) (W (main_v5 : DevRef τ sig)) (W (main_arg4 : DevRef τ sig)) (W (main_arg5 : DevRef τ sig))
          (W (main_arg6 : DevRef τ sig)) (W (main_arg7 : DevRef τ sig)) (W (main_arg8 : DevRef τ sig)) := by
  after_results_simp
  rfl

/-- The line is its five stretches one after the other. -/
theorem after_ops (V : Valuation τ sig (Elt F)) :
    after ops V = after opsT (after opsF (after opsC (after opsN (after opsQ V)))) := by
  simp only [ops, after_append]

/-- An argument is still as launched when the last stretch starts. -/
theorem arg_through (V : Valuation τ sig (Elt F)) (r : Ref sig .tc) (hr : r ∈ args) :
    after opsF (after opsC (after opsN (after opsQ V))) (Proc.devRef .tc r) = V (Proc.devRef .tc r) := by
  rw [keepF _ r (List.mem_cons_of_mem _ hr), keepC _ r hr, keepN _ r (List.mem_cons_of_mem _ hr), keepQ _ r hr]

attribute [local irreducible] Host.reduce Host.gather concatenate in
/-- The fold at the result buffer is `out` of the arguments' contents. -/
theorem result_eq (V : Valuation τ sig (Elt F)) :
    after ops V (main_v22 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  rw [after_ops, valT]
  rw [arg_through V main_arg4 (by decide), arg_through V main_arg5 (by decide), arg_through V main_arg6 (by decide),
    arg_through V main_arg7 (by decide), arg_through V main_arg8 (by decide)]
  rw [valF, keepC _ main_arg1 (by decide), keepN _ main_arg1 (by decide), keepQ _ main_arg1 (by decide),
    keepC _ main_arg2 (by decide), keepN _ main_arg2 (by decide), keepQ _ main_arg2 (by decide)]
  rw [keepF _ main_v4 (by decide), valC, valN, keepN _ main_v0 (by decide), valQ,
    keepQ _ main_arg0 (by decide), keepQ _ main_arg2 (by decide)]
  rfl

/-- No operation of the line writes an argument array. -/
theorem arg_eq (V : Valuation τ sig (Elt F)) (r : Ref sig .tc) (hr : r ∈ args) :
    after ops V (Proc.devRef .tc r) = V (Proc.devRef .tc r) := by
  rw [after_ops, keepT _ r hr, arg_through V r hr]

/-- Every weakly fair execution of the reference terminates with the result array at `out` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v22).trans (result_eq _),
        (h c main_arg0).trans (arg_eq _ main_arg0 (by decide)), (h c main_arg1).trans (arg_eq _ main_arg1 (by decide)),
        (h c main_arg2).trans (arg_eq _ main_arg2 (by decide)), (h c main_arg3).trans (arg_eq _ main_arg3 (by decide)),
        (h c main_arg4).trans (arg_eq _ main_arg4 (by decide)), (h c main_arg5).trans (arg_eq _ main_arg5 (by decide)),
        (h c main_arg6).trans (arg_eq _ main_arg6 (by decide)), (h c main_arg7).trans (arg_eq _ main_arg7 (by decide)),
        (h c main_arg8).trans (arg_eq _ main_arg8 (by decide))⟩)
    (run_line m ρ)

end Cert.ReferenceIdeal.Line

end
-- ==== Proof.RefAt.lean ====
/-
  The reference's result array read at one element.

  At (query q, channel o) the host's reduction over the neighbour axis is the maximum, from −∞, over the sixteen
  neighbours k of max(z, 0) with z = (h − mean[o]) · (gamma[o] · inv[o]) + beta[o] and h the contraction of the 35
  grouped channels of (q, k) with column o of the weights: the broadcasts of the per-channel rows read their
  channel, the broadcast zero of relu is 0, and the product is the plain sum at the extended reals.
-/
import proofs.«154620_j31817117728962_1_alg».proof.Proof.RefRun
import proofs.«154620_j31817117728962_1_alg».proof.Proof.Spec
import Idealize.ShloMosaic.Lib.Pipeline.Value
import Idealize.ShloMosaic.Lib.ValueIdx
import Idealize.ShloMosaic.PureOps.Ideal.Laws

noncomputable section

namespace Cert.ReferenceIdeal.At

open Cert.ReferenceIdeal Cert.ReferenceIdeal.Gen Idealize.ShloMosaic Idealize.ShloMosaic.ValueIdx

/-- The contraction's dimension numbers: the grouped operand's channel axis against the weights' row axis. -/
abbrev D : DotDims S131072x16x35 S35x64 S131072x16x64 := dot_S131072x16x35_S35x64_S131072x16x64_2_0_01_1_n_n

theorem lhs0 (j : S131072x16x64.Idx) (q : D.contr.Idx) : (D.lhsIdx j q 0).val = (j 0).val := by
  unfold DotDims.lhsIdx
  rw [dif_neg (show ¬(0 : Fin S131072x16x35.rank) ∈ D.lhsBatch by decide),
    dif_pos (show (0 : Fin S131072x16x35.rank) ∈ D.lhsNonContracting by decide)]
  rfl

theorem lhs1 (j : S131072x16x64.Idx) (q : D.contr.Idx) : (D.lhsIdx j q 1).val = (j 1).val := by
  unfold DotDims.lhsIdx
  rw [dif_neg (show ¬(1 : Fin S131072x16x35.rank) ∈ D.lhsBatch by decide),
    dif_pos (show (1 : Fin S131072x16x35.rank) ∈ D.lhsNonContracting by decide)]
  rfl

theorem lhs2 (j : S131072x16x64.Idx) (q : D.contr.Idx) : (D.lhsIdx j q 2).val = (q ⟨0, by decide⟩).val :=
  D.lhsIdx_val_of_single rfl j q

theorem rhs0 (j : S131072x16x64.Idx) (q : D.contr.Idx) : (D.rhsIdx j q 0).val = (q ⟨0, by decide⟩).val :=
  D.rhsIdx_val_of_single rfl j q

theorem rhs1 (j : S131072x16x64.Idx) (q : D.contr.Idx) : (D.rhsIdx j q 1).val = (j 2).val := by
  unfold DotDims.rhsIdx
  rw [dif_neg (show ¬(1 : Fin S35x64.rank) ∈ D.rhsBatch by decide),
    dif_pos (show (1 : Fin S35x64.rank) ∈ D.rhsNonContracting by decide)]
  rfl

/-- The host's product at (query, neighbour, channel): the sum over the 35 contracted channels. -/
theorem dot_at (X : FVec Ideal S131072x16x35 .f32) (W : FVec Ideal S35x64 .f32) (q : Fin 131072) (k : Fin 16) (o : Fin 64) :
    Host.dotGeneral D none X W (ix3 q k o) = ∑ i : Fin 35, X (ix3 q k i) * W (ix2 i o) := by
  simp only [Host.dotGeneral]
  rw [Ideal.dotGeneral_apply, ← Equiv.sum_comp (contrEquiv1 D 35 rfl rfl).symm]
  refine Finset.sum_congr rfl fun c _ => ?_
  have hc := contrEquiv1_symm_val D 35 rfl rfl c
  have el : D.lhsIdx (ix3 q k o) ((contrEquiv1 D 35 rfl rfl).symm c) = ix3 q k c := funext fun a => Fin.ext (by
    match a with
    | ⟨0, _⟩ => exact lhs0 _ _
    | ⟨1, _⟩ => exact lhs1 _ _
    | ⟨2, _⟩ => exact (lhs2 _ _).trans hc)
  have er : D.rhsIdx (ix3 q k o) ((contrEquiv1 D 35 rfl rfl).symm c) = ix2 c o := funext fun a => Fin.ext (by
    match a with
    | ⟨0, _⟩ => exact (rhs0 _ _).trans hc
    | ⟨1, _⟩ => exact rhs1 _ _)
  rw [el, er]

/-- A per-channel row broadcast over queries and neighbours reads its channel. -/
theorem chan_at (x : FVec Ideal S64 .f32) (q : Fin 131072) (k : Fin 16) (o : Fin 64) :
    broadcastInDim S131072x16x64 ![0, 1, 2] bcast_S1x1x64_S131072x16x64_0_1_2 (broadcastInDim S1x1x64 ![2] bcast_S64_S1x1x64_2 x) (ix3 q k o)
      = x (ix1 o) := by
  refine (broadcastInDim_apply _ _ _ (ix3 q k o) (ix3 0 0 o) (fun a => by
    match a with
    | ⟨0, _⟩ => rfl
    | ⟨1, _⟩ => rfl
    | ⟨2, _⟩ => rfl)).trans ?_
  exact broadcastInDim_apply _ _ x (ix3 0 0 o) (ix1 o) (fun a => by
    match a with
    | ⟨0, _⟩ => rfl)

/-- The zero `relu` compares with. -/
theorem zero_at (q : Fin 131072) (k : Fin 16) (o : Fin 64) :
    broadcastInDim S131072x16x64 ![] bcast_S_S131072x16x64 (constant (F := Ideal) S_ .f32 0x00000000#32) (ix3 q k o) = (0 : EReal) := by
  refine (broadcastInDim_apply _ _ _ (ix3 q k o) ix0 (fun a => a.elim0)).trans ?_
  exact Ideal.ofBits_zero_f32

theorem hred : S131072x16x64.Reduces [1] S131072x64 := by decide

/-- The host's maximum over the neighbour axis at (query, channel): the fold of max from −∞ over the sixteen neighbours. -/
theorem maxRedR (src : FVec Ideal S131072x16x64 .f32) (q : Fin 131072) (o : Fin 64) :
    Host.reduce FloatOps.maximumf src (constant (F := Ideal) S_ .f32 0xFF800000#32) reducesTo_S131072x16x64_S131072x64_d1 h_S_ (ix2 q o)
      = (Finset.univ : Finset (Fin 16)).fold max ⊥ (fun k => src (ix3 q k o)) := by
  refine (Host.reduce_eq_fold_single FloatOps.maximumf src _ reducesTo_S131072x16x64_S131072x64_d1 hred h_S_ (ix2 q o)).trans ?_
  have hl : ∀ k : Fin 16, hred.lift (ix2 q o) k = ix3 q k o := fun k => funext fun c => Fin.ext (by
    match c with
    | ⟨0, _⟩ => rfl
    | ⟨1, _⟩ => rfl
    | ⟨2, _⟩ => rfl)
  show (Finset.univ : Finset (Fin 16)).fold max (Ideal.ofBits .f32 0xFF800000#32) (fun k => src (hred.lift (ix2 q o) k)) = _
  rw [Cert.Law.neg_inf]
  refine congrArg (fun f => (Finset.univ : Finset (Fin 16)).fold max ⊥ f) (funext fun k => ?_)
  exact congrArg src (hl k)

/-- The last stretch with the grouped operand and the inverse standard deviation as parameters. -/
def outG (G : FVec Ideal S131072x16x35 .f32) (W : FVec Ideal S35x64 .f32) (gamma beta mean inv : FVec Ideal S64 .f32) :
    FVec Ideal S131072x64 .f32 :=
  Host.reduce FloatOps.maximumf
    (maximumf
      (addf
        (mulf
          (subf (Host.dotGeneral D none G W)
            (broadcastInDim S131072x16x64 ![0, 1, 2] bcast_S1x1x64_S131072x16x64_0_1_2 (broadcastInDim S1x1x64 ![2] bcast_S64_S1x1x64_2 mean)))
          (broadcastInDim S131072x16x64 ![0, 1, 2] bcast_S1x1x64_S131072x16x64_0_1_2
            (broadcastInDim S1x1x64 ![2] bcast_S64_S1x1x64_2 (mulf gamma inv))))
        (broadcastInDim S131072x16x64 ![0, 1, 2] bcast_S1x1x64_S131072x16x64_0_1_2 (broadcastInDim S1x1x64 ![2] bcast_S64_S1x1x64_2 beta)))
      (broadcastInDim S131072x16x64 ![] bcast_S_S131072x16x64 (constant S_ .f32 0x00000000#32)))
    (constant S_ .f32 0xFF800000#32) reducesTo_S131072x16x64_S131072x64_d1 h_S_

/-- The normalised value at (query, neighbour, channel), before the maximum over neighbours: from the contraction H,
    the mean, the scale gs and the offset, each per-channel row read at its channel. -/
theorem elem_at (H : FVec Ideal S131072x16x64 .f32) (mean gs beta : FVec Ideal S64 .f32) (q : Fin 131072) (k : Fin 16) (o : Fin 64) :
    maximumf
        (addf
          (mulf
            (subf H (broadcastInDim S131072x16x64 ![0, 1, 2] bcast_S1x1x64_S131072x16x64_0_1_2 (broadcastInDim S1x1x64 ![2] bcast_S64_S1x1x64_2 mean)))
            (broadcastInDim S131072x16x64 ![0, 1, 2] bcast_S1x1x64_S131072x16x64_0_1_2 (broadcastInDim S1x1x64 ![2] bcast_S64_S1x1x64_2 gs)))
          (broadcastInDim S131072x16x64 ![0, 1, 2] bcast_S1x1x64_S131072x16x64_0_1_2 (broadcastInDim S1x1x64 ![2] bcast_S64_S1x1x64_2 beta)))
        (broadcastInDim S131072x16x64 ![] bcast_S_S131072x16x64 (constant (F := Ideal) S_ .f32 0x00000000#32)) (ix3 q k o)
      = max ((H (ix3 q k o) - mean (ix1 o)) * gs (ix1 o) + beta (ix1 o)) 0 := by
  show max ((H (ix3 q k o)
        - broadcastInDim S131072x16x64 ![0, 1, 2] bcast_S1x1x64_S131072x16x64_0_1_2 (broadcastInDim S1x1x64 ![2] bcast_S64_S1x1x64_2 mean) (ix3 q k o))
      * broadcastInDim S131072x16x64 ![0, 1, 2] bcast_S1x1x64_S131072x16x64_0_1_2 (broadcastInDim S1x1x64 ![2] bcast_S64_S1x1x64_2 gs) (ix3 q k o)
      + broadcastInDim S131072x16x64 ![0, 1, 2] bcast_S1x1x64_S131072x16x64_0_1_2 (broadcastInDim S1x1x64 ![2] bcast_S64_S1x1x64_2 beta) (ix3 q k o))
    (broadcastInDim S131072x16x64 ![] bcast_S_S131072x16x64 (constant (F := Ideal) S_ .f32 0x00000000#32) (ix3 q k o)) = _
  rw [chan_at, chan_at, chan_at, zero_at]

/-- That result at (q, o): the element's value in the reference's form. -/
theorem outG_apply (G : FVec Ideal S131072x16x35 .f32) (W : FVec Ideal S35x64 .f32) (gamma beta mean inv : FVec Ideal S64 .f32)
    (q : Fin 131072) (o : Fin 64) :
    outG G W gamma beta mean inv (ix2 q o) = Cert.Spec.outR G W gamma beta mean inv (ix2 q o) := by
  rw [Cert.Spec.outR_apply]
  unfold outG
  refine (maxRedR _ q o).trans ?_
  unfold Cert.Spec.cellR
  refine congrArg (fun f => (Finset.univ : Finset (Fin 16)).fold max ⊥ f) (funext fun (k : Fin 16) => ?_)
  refine (elem_at (Host.dotGeneral D none G W) mean (mulf gamma inv) beta q k o).trans ?_
  rw [dot_at]
  rfl

/-- The reference's result at (q, o) is the element's value in the reference's form, over the shared stages. -/
theorem out_apply (point : FVec Ideal S524288x3 .f32) (feat : FVec Ideal S524288x32 .f32) (idx : IVec S131072x16 32)
    (sidx : IVec S131072 32) (W : FVec Ideal S35x64 .f32) (gamma beta mean var : FVec Ideal S64 .f32)
    (q : Fin 131072) (o : Fin 64) :
    Cert.ReferenceIdeal.Line.out point feat idx sidx W gamma beta mean var (ix2 q o)
      = Cert.Spec.outR (Cert.Stages.grouped point feat idx sidx) W gamma beta mean (Cert.Stages.invStd var) (ix2 q o) :=
  outG_apply (Cert.Stages.grouped point feat idx sidx) W gamma beta mean (Cert.Stages.invStd var) q o

end Cert.ReferenceIdeal.At

end
-- ==== Proof.Pre.lean ====
/-
  What the precondition says of the per-channel arguments.

  The precondition is the conjunction of "every entry is below +∞ in absolute value" for each float argument and
  "every entry of the running variance is at least 0". An extended real below +∞ in absolute value is a real
  number, so the gain, the offset, the running mean and the running variance are real channel by channel, and
  the variance is non-negative.
-/
import proofs.«154620_j31817117728962_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Hand

open Cert.Pre_finite_inputs Idealize.ShloMosaic Idealize.ShloMosaic.ValueIdx

instance : Subsingleton S_.Idx := ⟨fun a b => funext fun d => d.elim0⟩

/-- The pattern the entries are compared with is +∞. -/
theorem inf_bits : Ideal.ofBits .f32 0x7F800000#32 = ⊤ := by simp [Ideal.ofBits, Ideal.ieee]

/-- An extended real whose absolute value is below +∞ is a real number. -/
theorem real_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The comparison `x ≥ 0` answering 1 says 0 ≤ x. -/
theorem nonneg_of_ge (x : EReal) (h : Ideal.cmp .oge x 0 = 1#1) : 0 ≤ x := by
  by_contra hx
  have e : Ideal.cmp .oge x 0 = 0#1 := by simp [Ideal.cmp, hx]
  rw [e] at h
  exact absurd h (by decide)

variable [Facts]

/-- `jnp.all(|a| < inf)` over a channel vector: every channel is real. -/
theorem real_of_all (a : FVec Ideal S64 .f32)
    (h : Host.reduce IntOp.andi (cmpf .olt (Host.absf a) (broadcastInDim S64 ![] Facts.bcast_S_S64 (constant (F := Ideal) S_ .f32 0x7F800000#32)))
        (constantI S_ 1 1#1) Facts.reducesTo_S64_S_d0 Facts.h_S_ ix0 = 1#1) (o : Fin 64) :
    ∃ r : ℝ, a (ix1 o) = (r : EReal) := by
  have e := Host.reduce_andi_all _ _ _ _ ix0 h (ix1 o)
  refine real_of_abs_lt _ ?_
  rw [← inf_bits]
  exact e

/-- `jnp.all(a >= 0)` over a channel vector: every channel is at least 0. -/
theorem nonneg_of_all (a : FVec Ideal S64 .f32)
    (h : Host.reduce IntOp.andi (cmpf .oge a (broadcastInDim S64 ![] Facts.bcast_S_S64 (constant (F := Ideal) S_ .f32 0x00000000#32)))
        (constantI S_ 1 1#1) Facts.reducesTo_S64_S_d0 Facts.h_S_ ix0 = 1#1) (o : Fin 64) :
    0 ≤ a (ix1 o) := by
  have e := Host.reduce_andi_all _ _ _ _ ix0 h (ix1 o)
  refine nonneg_of_ge _ ?_
  rw [← Ideal.ofBits_zero_f32]
  exact e

/-- The precondition, read: gain, offset and running mean are real in every channel, and the running variance is
    a non-negative real. -/
theorem read (a0 : FVec Ideal S524288x3 .f32) (a1 : FVec Ideal S524288x32 .f32) (a2 : IVec S131072x16 32) (a3 : IVec S131072 32)
    (a4 : FVec Ideal S35x64 .f32) (a5 a6 a7 a8 : FVec Ideal S64 .f32)
    (h : fn (F := Ideal) a0 a1 a2 a3 a4 a5 a6 a7 a8 = fun _ => 1#1) :
    (∀ o : Fin 64, ∃ r : ℝ, a5 (ix1 o) = (r : EReal)) ∧ (∀ o : Fin 64, ∃ r : ℝ, a6 (ix1 o) = (r : EReal))
    ∧ (∀ o : Fin 64, ∃ r : ℝ, a7 (ix1 o) = (r : EReal)) ∧ (∀ o : Fin 64, ∃ r : ℝ, 0 ≤ r ∧ a8 (ix1 o) = (r : EReal)) := by
  have h0 := congrFun h ix0
  dsimp only [fn, fn_part1, fn_part2] at h0
  obtain ⟨h33, h36⟩ := IntOp.andi_eq_one.mp h0
  obtain ⟨h28, h32⟩ := IntOp.andi_eq_one.mp h33
  obtain ⟨h23, h27⟩ := IntOp.andi_eq_one.mp h28
  obtain ⟨h18, h22⟩ := IntOp.andi_eq_one.mp h23
  obtain ⟨-, h17⟩ := IntOp.andi_eq_one.mp h18
  refine ⟨real_of_all a5 h17, real_of_all a6 h22, real_of_all a7 h27, fun o => ?_⟩
  obtain ⟨r, hr⟩ := real_of_all a8 h32 o
  have hn := nonneg_of_all a8 h36 o
  rw [hr] at hn
  exact ⟨r, EReal.coe_nonneg.mp hn, hr⟩

end Cert.Pre_finite_inputs.Hand

end
-- ==== Proof.Bridge.lean ====
/-
  The bridge: the kernel's result array and the reference's are one function of the arguments.

  Both are, at (query q, channel o), the maximum over the sixteen neighbours of the normalised contraction of the
  same grouped operand with the same weights. The kernel is handed gamma · inv and beta − (mean · gamma) · inv as
  rows; the reference normalises with mean, gamma · inv and beta. Under the precondition gamma, beta, mean are real
  and the variance is a non-negative real, so inv = 1 / sqrt(var + eps) is real and the two forms agree.
-/
import proofs.«154620_j31817117728962_1_alg».proof.Proof.KernelValue
import proofs.«154620_j31817117728962_1_alg».proof.Proof.KernelEntry
import proofs.«154620_j31817117728962_1_alg».proof.Proof.RefAt
import proofs.«154620_j31817117728962_1_alg».proof.Proof.Pre

noncomputable section

namespace Cert.Bridge

open Idealize.ShloMosaic Idealize.ShloMosaic.TcCoe Idealize.SL.Sem Idealize.ShloMosaic.ValueIdx

/-- A channel vector reshaped to a [1, 64] row reads its channel. -/
theorem row_at (v : FVec Ideal Cert.KernelIdeal.S64 .f32) (o : Fin 64) :
    shapeCast Cert.KernelIdeal.S1x64 v Cert.KernelIdeal.Gen.shapeCasts_S64_S1x64 (ix2 0 o) = v (ix1 o) :=
  shapeCast_apply v _ (ix2 0 o) (ix1 o) (by
    rw [Shape.rowMajor_val_one, Shape.rowMajor_val_two]
    show o.val = 0 * 64 + o.val
    omega)

/-- The inverse standard deviation of one channel. -/
theorem inv_at (var : FVec Ideal Cert.KernelIdeal.S64 .f32) (o : Fin 64) :
    Cert.Stages.invStd var (ix1 o) = Ideal.rsqrt (var (ix1 o) + Ideal.ofBits .f32 0x3727C5AC#32) := rfl

/-- With the scale and shift rows the kernel is handed, its result function is the reference's, for any grouped
    operand and weights, once gain, offset and mean are real and the variance is a non-negative real. -/
theorem forms_eq (X : (⟨3, ![131072, 16, 35]⟩ : Shape).Idx → EReal) (W : (⟨2, ![35, 64]⟩ : Shape).Idx → EReal)
    (g b u var : FVec Ideal Cert.KernelIdeal.S64 .f32)
    (hg : ∀ o : Fin 64, ∃ r : ℝ, g (ix1 o) = (r : EReal)) (hb : ∀ o : Fin 64, ∃ r : ℝ, b (ix1 o) = (r : EReal))
    (hu : ∀ o : Fin 64, ∃ r : ℝ, u (ix1 o) = (r : EReal)) (hv : ∀ o : Fin 64, ∃ r : ℝ, 0 ≤ r ∧ var (ix1 o) = (r : EReal)) :
    Cert.Spec.outK X W
        (shapeCast Cert.KernelIdeal.S1x64 (mulf g (Cert.Stages.invStd var)) Cert.KernelIdeal.Gen.shapeCasts_S64_S1x64)
        (shapeCast Cert.KernelIdeal.S1x64 (subf b (mulf (mulf u g) (Cert.Stages.invStd var))) Cert.KernelIdeal.Gen.shapeCasts_S64_S1x64)
      = Cert.Spec.outR X W g b u (Cert.Stages.invStd var) := by
  funext j
  obtain ⟨q, o, rfl⟩ : ∃ (q : Fin 131072) (o : Fin 64), j = ix2 q o := ⟨j 0, j 1, eq_ix2 j⟩
  rw [Cert.Spec.outK_apply, Cert.Spec.outR_apply, row_at, row_at]
  obtain ⟨g', hg'⟩ := hg o
  obtain ⟨b', hb'⟩ := hb o
  obtain ⟨u', hu'⟩ := hu o
  obtain ⟨v', hv0, hv'⟩ := hv o
  obtain ⟨r, hr⟩ := Cert.Law.rsqrt_real v' hv0
  have hinv : Cert.Stages.invStd var (ix1 o) = (r : EReal) := by rw [inv_at, hv', hr]
  show Cert.Spec.cellK _ _ (g (ix1 o) * Cert.Stages.invStd var (ix1 o))
      (b (ix1 o) - u (ix1 o) * g (ix1 o) * Cert.Stages.invStd var (ix1 o))
    = Cert.Spec.cellR _ _ (u (ix1 o)) (g (ix1 o) * Cert.Stages.invStd var (ix1 o)) (b (ix1 o))
  rw [hg', hb', hu', hinv]
  exact Cert.Spec.cell_eq _ _ g' r u' b'

open Cert.KernelIdeal Cert.KernelIdeal.Gen in
/-- The reference's result of the kernel's arguments is the kernel's result function of the arrays its region finds. -/
theorem result_eq (m : (ℓ : Loc nD τ sig) → Buf (Elt Ideal) ℓ) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    Cert.ReferenceIdeal.Line.out (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8))
      = Cert.KernelIdeal.Hand.result m c := by
  obtain ⟨hg, hb, hu, hv⟩ := Cert.Pre_finite_inputs.Hand.read _ _ _ _ _ _ _ _ _ hpre
  funext j
  obtain ⟨q, o, rfl⟩ : ∃ (q : Fin 131072) (o : Fin 64), j = ix2 q o := ⟨j 0, j 1, eq_ix2 j⟩
  rw [Cert.ReferenceIdeal.At.out_apply]
  unfold Cert.KernelIdeal.Hand.result
  rw [Cert.KernelIdeal.Entry.grouped_eq, V_main_arg4, Cert.KernelIdeal.Entry.scale_eq, Cert.KernelIdeal.Entry.shift_eq]
  exact (congrFun (forms_eq _ _ _ _ _ _ hg hb hu hv) (ix2 q o)).symm

end Cert.Bridge

end
-- ==== Proof.lean ====
/-
  The certificate's claims.

  The kernel gathers and groups on the host, folds the batch normalisation into one scale row and one shift row,
  and in its region, per block of 1024 queries, contracts the 35 grouped channels with the weights, applies scale
  and shift, takes the maximum with zero and the maximum over the sixteen neighbours. The reference does the same
  on the host with the normalisation written (h − mean) · (gamma · inv) + beta. At the extended reals the product
  is the plain sum on both sides and the only difference is that arrangement of the normalisation, which is an
  identity once gamma, beta, mean are real and inv = 1 / sqrt(var + eps) is real; the precondition (every float
  input finite, the running variance non-negative) gives exactly that.

  The three frames: the two kernels' are the generated frame runs; the reference's is its run with the result
  dropped. The idealization rewrote nothing, so there is nothing to preserve.
-/
import proofs.«154620_j31817117728962_1_alg».proof.Defs
import proofs.«154620_j31817117728962_1_alg».proof.Proof.Gen.Kernel
import proofs.«154620_j31817117728962_1_alg».proof.Proof.Gen.Kernel.Skeleton
import proofs.«154620_j31817117728962_1_alg».proof.Proof.Gen.Kernel.Launch
import proofs.«154620_j31817117728962_1_alg».proof.Proof.Gen.Kernel.Points
import proofs.«154620_j31817117728962_1_alg».proof.Proof.Gen.Kernel.Frame
import proofs.«154620_j31817117728962_1_alg».proof.Proof.Gen.KernelIdeal
import proofs.«154620_j31817117728962_1_alg».proof.Proof.Gen.KernelIdeal.Skeleton
import proofs.«154620_j31817117728962_1_alg».proof.Proof.Gen.KernelIdeal.Launch
import proofs.«154620_j31817117728962_1_alg».proof.Proof.Gen.KernelIdeal.Points
import proofs.«154620_j31817117728962_1_alg».proof.Proof.Gen.KernelIdeal.Frame
import proofs.«154620_j31817117728962_1_alg».proof.Proof.Gen.KernelIdeal.Value
import proofs.«154620_j31817117728962_1_alg».proof.Proof.Gen.ReferenceIdeal
import proofs.«154620_j31817117728962_1_alg».proof.Proof.Gen.Pre_finite_inputs
import proofs.«154620_j31817117728962_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Line.run (F := Ideal) m ρ)

theorem preserves : Cert.preserves_Kernel_KernelIdeal := trivial

/-- Both programs end with the same result array: the kernel's is its result function of the arrays its region
    finds, the reference's its `out` of arguments that agree, and under the precondition these are one function. -/
theorem algebraic : Cert.algebraic_KernelIdeal_ReferenceIdeal := by
  intro m ρ m' ρ' hpre hagree
  refine ⟨fun c => Cert.KernelIdeal.Hand.result m c, ?_, ?_⟩
  · exact (θ_run Cert.KernelIdeal.defs _ _).mono
      (fun r h c => ⟨(h c).1.trans (Cert.KernelIdeal.Hand.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Line.run (F := Ideal) m' ρ')
    obtain ⟨e0, e1, e2, e3, e4, e5, e6, e7, e8⟩ := hagree c
    rw [e0, e1, e2, e3, e4, e5, e6, e7, e8]
    exact Cert.Bridge.result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
